-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64 : Shape := ⟨1, ![64]⟩
abbrev S64x64 : Shape := ⟨2, ![64, 64]⟩
abbrev S1600000x64 : Shape := ⟨2, ![1600000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000x64 : S_.BroadcastsInDim S1600000x64 (![] : Fin 0 → Fin S1600000x64.rank)
  reducesTo_S1600000x64_S_d0_1 : S1600000x64.ReducesTo [0, 1] S_

variable [Facts]

def fn_part3 {F : FTy → Type} [FloatOps F] (main_v48 : IVec S_ 1) (main_v49 : FVec F S1600000x64 .f32) (main_v50 : FVec F S1600000x64 .f32) : IVec S_ 1 :=
  let main_v51 : IVec S1600000x64 1 := cmpf .olt main_v49 main_v50
  let main_c_19 : IVec S_ 1 := constantI S_ 1 1#1
  let main_v52 : IVec S_ 1 := (fun x v => Host.reduce IntOp.andi x v reducesTo_S1600000x64_S_d0_1 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S1600000x64 .f32) (main_arg12 : FVec F S1600000x64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1600000x64 .f32 := Host.absf main_arg11
  let main_cst_16 : FVec F S_ .f32 := constant S_ .f32 0x7F800000#32
  let main_v45 : FVec F S1600000x64 .f32 := broadcastInDim S1600000x64 ![] bcast_S_S1600000x64 main_cst_16
  let main_v46 : IVec S1600000x64 1 := cmpf .olt main_v44 main_v45
  let main_c_17 : IVec S_ 1 := constantI S_ 1 1#1
  let main_v47 : IVec S_ 1 := (fun x v => Host.reduce IntOp.andi x v reducesTo_S1600000x64_S_d0_1 h_S_) main_v46 main_c_17
  let main_v48 : IVec S_ 1 := andi main_v43 main_v47
  let main_v49 : FVec F S1600000x64 .f32 := Host.absf main_arg12
  let main_cst_18 : FVec F S_ .f32 := constant S_ .f32 0x7F800000#32
  let main_v50 : FVec F S1600000x64 .f32 := broadcastInDim S1600000x64 ![] bcast_S_S1600000x64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S1600000x64 .f32) (main_arg12 : FVec F S1600000x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S1600000 32) (main_arg2 : IVec S1600000 32) (main_arg3 : FVec F S64 .f32) (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S1600000x64 .f32) (main_arg12 : FVec F S1600000x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S1600000 : Shape := ⟨1, ![1600000]⟩
abbrev S64 : Shape := ⟨1, ![64]⟩
abbrev S64x64 : Shape := ⟨2, ![64, 64]⟩
abbrev S1600000x64 : Shape := ⟨2, ![1600000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S800000x128 : Shape := ⟨2, ![800000, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8000x128 : Shape := ⟨2, ![8000, 128]⟩
abbrev S2000x64 : Shape := ⟨2, ![2000, 64]⟩
abbrev S2000x1 : Shape := ⟨2, ![2000, 1]⟩
abbrev S2000 : Shape := ⟨1, ![2000]⟩

abbrev nBuf : Space → Nat
  | .hbm => 103
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1600000x64, .f32⟩
  | .hbm, ⟨12, _⟩ => ⟨S1600000x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S800000x128, .f32⟩
  | .hbm, ⟨59, _⟩ => ⟨S800000x128, .f32⟩
  | .hbm, ⟨60, _⟩ => ⟨S1x64, .f32⟩
  | .hbm, ⟨61, _⟩ => ⟨S2x64, .f32⟩
  | .hbm, ⟨62, _⟩ => ⟨S128, .f32⟩
  | .hbm, ⟨63, _⟩ => ⟨S1x128, .f32⟩
  | .hbm, ⟨64, _⟩ => ⟨S1x64, .f32⟩
  | .hbm, ⟨65, _⟩ => ⟨S2x64, .f32⟩
  | .hbm, ⟨66, _⟩ => ⟨S128, .f32⟩
  | .hbm, ⟨67, _⟩ => ⟨S1x128, .f32⟩
  | .hbm, ⟨68, _⟩ => ⟨S800000x128, .f32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S800000x128, .f32⟩
  | .hbm, ⟨86, _⟩ => ⟨S800000x128, .f32⟩
  | .hbm, ⟨87, _⟩ => ⟨S1x64, .f32⟩
  | .hbm, ⟨88, _⟩ => ⟨S2x64, .f32⟩
  | .hbm, ⟨89, _⟩ => ⟨S128, .f32⟩
  | .hbm, ⟨90, _⟩ => ⟨S1x128, .f32⟩
  | .hbm, ⟨91, _⟩ => ⟨S1x64, .f32⟩
  | .hbm, ⟨92, _⟩ => ⟨S2x64, .f32⟩
  | .hbm, ⟨93, _⟩ => ⟨S128, .f32⟩
  | .hbm, ⟨94, _⟩ => ⟨S1x128, .f32⟩
  | .hbm, ⟨95, _⟩ => ⟨S800000x128, .f32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S1x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S64x64, .f32⟩
  | .local _ .vmem, ⟨13, _⟩ => ⟨S1x64, .f32⟩
  | .local _ .vmem, ⟨14, _⟩ => ⟨S2000x1, .f32⟩
  | .local _ .vmem, ⟨15, _⟩ => ⟨S2000x1, .f32⟩
  | .local _ .vmem, ⟨16, _⟩ => ⟨S2000x64, .f32⟩
  | .local _ .vmem, ⟨17, _⟩ => ⟨S2000x64, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S1x128, .f32⟩
  | .local _ .vmem, ⟨23, _⟩ => ⟨S1x128, .f32⟩
  | .local _ .vmem, ⟨24, _⟩ => ⟨S8000x128, .f32⟩
  | .local _ .vmem, ⟨25, _⟩ => ⟨S8000x128, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | .local _ .vmem, ⟨30, _⟩ => ⟨S64x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_cst_6 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_c_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S1600000x64_S800000x128 : S1600000x64.ShapeCasts S800000x128
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  shapeCasts_S800000x128_S1600000x64 : S800000x128.ShapeCasts S1600000x64
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S800000x128.size a
  hwx2_4 : ∀ i : grid2.Coords, EltTy.bits .f32 = 32 ∨ (Rect.block (s := S800000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v30) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v68) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64 : Shape := ⟨1, ![64]⟩
abbrev S64x64 : Shape := ⟨2, ![64, 64]⟩
abbrev S1600000x64 : Shape := ⟨2, ![1600000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1600000x64, .f32⟩
  | .hbm, ⟨12, _⟩ => ⟨S1600000x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S64, .f32⟩
  | .hbm, ⟨48, _⟩ => ⟨S1x64, .f32⟩
  | .hbm, ⟨49, _⟩ => ⟨S1600000x64, .f32⟩
  | .hbm, ⟨50, _⟩ => ⟨S1600000x64, .f32⟩
  | .hbm, ⟨51, _⟩ => ⟨S1x64, .f32⟩
  | .hbm, ⟨52, _⟩ => ⟨S1600000x64, .f32⟩
  | .hbm, ⟨53, _⟩ => ⟨S1600000x64, .f32⟩
  | .hbm, ⟨54, _⟩ => ⟨S64, .f32⟩
  | .hbm, ⟨55, _⟩ => ⟨S1x64, .f32⟩
  | .hbm, ⟨56, _⟩ => ⟨S1600000x64, .f32⟩
  | .hbm, ⟨57, _⟩ => ⟨S1600000x64, .f32⟩
  | .hbm, ⟨58, _⟩ => ⟨S1x64, .f32⟩
  | .hbm, ⟨59, _⟩ => ⟨S1600000x64, .f32⟩
  | .hbm, ⟨60, _⟩ => ⟨S1600000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x64, .f32⟩
  | .hbm, ⟨121, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_cst_6 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel's run with its result named: every weakly fair execution of @main terminates, faultless,
  with the result array at the last region boundary's contents of its buffer (the fold of the host stretches and the
  four pipelines' write-backs from the launch memory) and every argument array as launched.
-/
import proofs.«154065_j65000035058538_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over @main's twelve segments, the last thread state read against the final state: the result buffer holds
    the last boundary's contents, each argument its launch contents. -/
theorem run : θ_run defs (onTc (τ := τ) (main (F := F))) ⟨m, fun _ => 0, ρ⟩ (fun r => ∀ c : Dev nD,
      r.2.mem ((c.tc : Thread nD τ).loc main_v70) = W12 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v70 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.HostReads.lean ====
/-
  What each stretch of host operations of the idealized kernel's @main leaves in the buffers the next pipeline
  reads, over ANY valuation `W` the stretch starts from, as the host operations' pure terms — stated against the
  reference's stages (its per-operation values as functions of the argument arrays), since between the pipelines the two
  programs apply the same operations: the degree norms, the row gather by source node, the segment sum by target
  node. A pipeline's own array enters as a hypothesis (what the previous region left), so each lemma is one step of
  the chain from the launch memory to the result.
-/
import proofs.«154065_j65000035058538_2_alg».proof.Proof.Gen.KernelIdeal.Launch
import proofs.«154065_j65000035058538_2_alg».proof.Proof.RefReadP
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen

variable {F : FTy → Type} [FloatOps F]

/-- The five stretches before the first pipeline, composed. -/
abbrev pre (W : Valuation τ sig (Elt F)) : Valuation τ sig (Elt F) :=
  after hostOps0_4 (after hostOps0_3 (after hostOps0_2 (after hostOps0_1 (after hostOps0 W))))

/-- The lane-dense tiling of a feature vector: [64] → [1,64] → [2,64] → [128] → [1,128]. -/
def tile (x : (⟨S64, .f32⟩ : BufTy).Contents (Elt F)) : (⟨S1x128, .f32⟩ : BufTy).Contents (Elt F) :=
  shapeCast S1x128 (shapeCast S128 (broadcastInDim S2x64 ![0, 1] bcast_S1x64_S2x64_0_1 (shapeCast S1x64 x shapeCasts_S64_S1x64)) shapeCasts_S2x64_S128) shapeCasts_S128_S1x128

variable (W : Valuation τ sig (Elt F))

/-! ## Before the first pipeline -/

theorem pre_v13 : pre W (Proc.devRef .tc main_v13) = Cert.ReferenceIdeal.ReadP.val_main_v13 (W (Proc.devRef .tc main_arg1)) := by
  after_results_simp <;> rfl

theorem pre_v20 : pre W (Proc.devRef .tc main_v20) = Cert.ReferenceIdeal.ReadP.val_main_v20 (W (Proc.devRef .tc main_arg2)) := by
  after_results_simp <;> rfl

theorem pre_v30 : pre W (Proc.devRef .tc main_v30)
    = shapeCast S800000x128 (Cert.ReferenceIdeal.ReadP.val_main_v43 (W (Proc.devRef .tc main_arg0)) (W (Proc.devRef .tc main_arg1))) shapeCasts_S1600000x64_S800000x128 := by
  after_results_simp <;> rfl

theorem pre_v31 : pre W (Proc.devRef .tc main_v31)
    = shapeCast S800000x128 (W (Proc.devRef .tc main_arg11)) shapeCasts_S1600000x64_S800000x128 := by
  after_results_simp <;> rfl

theorem pre_v35 : pre W (Proc.devRef .tc main_v35) = tile (W (Proc.devRef .tc main_arg3)) := by
  after_results_simp <;> rfl

theorem pre_v39 : pre W (Proc.devRef .tc main_v39) = tile (W (Proc.devRef .tc main_arg4)) := by
  after_results_simp <;> rfl

/-! ## Between the pipelines -/

variable (x0 : (⟨S100000x64, .f32⟩ : BufTy).Contents (Elt F)) (x1 x2 : (⟨S1600000, .i32⟩ : BufTy).Contents (Elt F))
  (x3 x4 x5 x6 : (⟨S64, .f32⟩ : BufTy).Contents (Elt F)) (x7 : (⟨S64x64, .f32⟩ : BufTy).Contents (Elt F))
  (x8 : (⟨S64, .f32⟩ : BufTy).Contents (Elt F)) (x9 : (⟨S64x64, .f32⟩ : BufTy).Contents (Elt F))
  (x10 : (⟨S64, .f32⟩ : BufTy).Contents (Elt F)) (x11 x12 : (⟨S1600000x64, .f32⟩ : BufTy).Contents (Elt F))

/-- After the first pipeline: the messages cast back to [E, 64] and summed by target node. -/
theorem h1_v44
    (h40 : shapeCast S1600000x64 (W (Proc.devRef .tc main_v40)) shapeCasts_S800000x128_S1600000x64 = Cert.ReferenceIdeal.ReadP.val_main_v44 x0 x1 x3 x4 x11)
    (h2 : W (Proc.devRef .tc main_arg2) = x2) :
    after hostOps1 W (Proc.devRef .tc main_v44) = Cert.ReferenceIdeal.ReadP.val_main_v47 x0 x1 x2 x3 x4 x11 := by
  subst h2
  unfold Cert.ReferenceIdeal.ReadP.val_main_v47
  rw [← h40]
  after_results_simp <;> rfl

theorem h1_v45 : after hostOps1 W (Proc.devRef .tc main_v45) = shapeCast S1x64 (W (Proc.devRef .tc main_arg8)) shapeCasts_S64_S1x64 := by
  after_results_simp <;> rfl

/-- A buffer the stretch does not write keeps its contents. -/
theorem h1_keep (b : Ref sig .tc)
    (hb : ∀ y ∈ ([main_v41, main_cst_9, main_v42, main_v43, main_v44, main_v45] : List (Ref sig .tc)), b ≠ y) :
    after hostOps1 W (Proc.devRef .tc b) = W (Proc.devRef .tc b) := by
  refine after_of_forall_not_mem _ _ (List.forall_iff_forall_mem.mp ?_)
  simp only [hostOps1, List.Forall, nullary_writes, unary_writes, binary_writes, ternary_writes, reshape_writes, Finset.mem_singleton]
  repeat' apply And.intro
  all_goals exact devRef_ne_of_ne (hb _ (by simp))

/-- After the second pipeline: the scaled first-layer activations gathered by source node, lane-dense. -/
theorem h2_v54
    (h46 : W (Proc.devRef .tc main_v46) = Cert.ReferenceIdeal.ReadP.val_main_v56 x0 x1 x2 x3 x4 x7 x8 x11)
    (h1 : W (Proc.devRef .tc main_arg1) = x1) :
    after hostOps2 W (Proc.devRef .tc main_v54)
      = shapeCast S800000x128 (Cert.ReferenceIdeal.ReadP.val_main_v63 x0 x1 x2 x3 x4 x7 x8 x11) shapeCasts_S1600000x64_S800000x128 := by
  subst h1
  unfold Cert.ReferenceIdeal.ReadP.val_main_v63
  rw [← h46]
  after_results_simp <;> rfl

theorem h2_v55 : after hostOps2 W (Proc.devRef .tc main_v55)
    = shapeCast S800000x128 (W (Proc.devRef .tc main_arg12)) shapeCasts_S1600000x64_S800000x128 := by
  after_results_simp <;> rfl

theorem h2_v59 : after hostOps2 W (Proc.devRef .tc main_v59) = tile (W (Proc.devRef .tc main_arg5)) := by
  after_results_simp <;> rfl

theorem h2_v63 : after hostOps2 W (Proc.devRef .tc main_v63) = tile (W (Proc.devRef .tc main_arg6)) := by
  after_results_simp <;> rfl

/-- After the third pipeline: the second layer's messages cast back and summed by target node. -/
theorem h3_v68
    (h64 : shapeCast S1600000x64 (W (Proc.devRef .tc main_v64)) shapeCasts_S800000x128_S1600000x64 = Cert.ReferenceIdeal.ReadP.val_main_v64 x0 x1 x2 x3 x4 x5 x6 x7 x8 x11 x12)
    (h2 : W (Proc.devRef .tc main_arg2) = x2) :
    after hostOps3 W (Proc.devRef .tc main_v68) = Cert.ReferenceIdeal.ReadP.val_main_v67 x0 x1 x2 x3 x4 x5 x6 x7 x8 x11 x12 := by
  subst h2
  unfold Cert.ReferenceIdeal.ReadP.val_main_v67
  rw [← h64]
  after_results_simp <;> rfl

theorem h3_v69 : after hostOps3 W (Proc.devRef .tc main_v69) = shapeCast S1x64 (W (Proc.devRef .tc main_arg10)) shapeCasts_S64_S1x64 := by
  after_results_simp <;> rfl

theorem h2_keep (b : Ref sig .tc)
    (hb : ∀ y ∈ ([main_c_10, main_v47, main_v48, main_c_11, main_v49, main_v50, main_v51, main_v52, main_v53, main_v54, main_v55,
      main_v56, main_v57, main_v58, main_v59, main_v60, main_v61, main_v62, main_v63] : List (Ref sig .tc)), b ≠ y) :
    after hostOps2 W (Proc.devRef .tc b) = W (Proc.devRef .tc b) := by
  refine after_of_forall_not_mem _ _ (List.forall_iff_forall_mem.mp ?_)
  simp only [hostOps2, List.Forall, nullary_writes, unary_writes, binary_writes, ternary_writes, reshape_writes, Finset.mem_singleton]
  repeat' apply And.intro
  all_goals exact devRef_ne_of_ne (hb _ (by simp))

theorem h3_keep (b : Ref sig .tc)
    (hb : ∀ y ∈ ([main_v65, main_cst_12, main_v66, main_v67, main_v68, main_v69] : List (Ref sig .tc)), b ≠ y) :
    after hostOps3 W (Proc.devRef .tc b) = W (Proc.devRef .tc b) := by
  refine after_of_forall_not_mem _ _ (List.forall_iff_forall_mem.mp ?_)
  simp only [hostOps3, List.Forall, nullary_writes, unary_writes, binary_writes, ternary_writes, reshape_writes, Finset.mem_singleton]
  repeat' apply And.intro
  all_goals exact devRef_ne_of_ne (hb _ (by simp))

/-! ## The arguments the later stretches and pipelines read pass the first five stretches untouched -/

theorem pre_arg1 : pre W (Proc.devRef .tc main_arg1) = W (Proc.devRef .tc main_arg1) := by after_results_simp
theorem pre_arg2 : pre W (Proc.devRef .tc main_arg2) = W (Proc.devRef .tc main_arg2) := by after_results_simp
theorem pre_arg5 : pre W (Proc.devRef .tc main_arg5) = W (Proc.devRef .tc main_arg5) := by after_results_simp
theorem pre_arg6 : pre W (Proc.devRef .tc main_arg6) = W (Proc.devRef .tc main_arg6) := by after_results_simp
theorem pre_arg7 : pre W (Proc.devRef .tc main_arg7) = W (Proc.devRef .tc main_arg7) := by after_results_simp
theorem pre_arg8 : pre W (Proc.devRef .tc main_arg8) = W (Proc.devRef .tc main_arg8) := by after_results_simp
theorem pre_arg9 : pre W (Proc.devRef .tc main_arg9) = W (Proc.devRef .tc main_arg9) := by after_results_simp
theorem pre_arg10 : pre W (Proc.devRef .tc main_arg10) = W (Proc.devRef .tc main_arg10) := by after_results_simp
theorem pre_arg12 : pre W (Proc.devRef .tc main_arg12) = W (Proc.devRef .tc main_arg12) := by after_results_simp

end Cert.KernelIdeal.HostReads

end
-- ==== Proof.Spec.lean ====
/-
  The layer functions of the two-layer graph convolution, as extended-real functions of whole arrays, index by
  index. N = 100000 nodes, E = 1600000 edges, 64 features; an edge array [E, 64] is also viewed lane-dense as
  [E/2, 128] (row r of the view holds edges 2r and 2r+1 side by side).

  * `edge`: the per-edge message on the lane-dense view, m[r, l] = h[r, l] · (mu[0, l] + exp(ls[0, l]) · eps[r, l]).
  * `lin`: a node row's linear layer, z[n, f] = (Σ_k (agg[n, k] · nin[n, 0]) · W[k, f]) + b[0, f].
  * `nodeRelu`: max(z, 0) · nout[n, 0].
  * `rowMax`, `nodeSoftmax`: the row maximum from −∞, and exp(z − max) / Σ_f exp(z − max).
-/
import Idealize.ShloMosaic.Lib.ValueIdx
import Idealize.ShloMosaic.PureOps.Ideal.Laws

noncomputable section

namespace Cert.Spec

open Idealize.ShloMosaic Idealize.ShloMosaic.ValueIdx

abbrev A (n0 n1 : Nat) : Type := (⟨2, ![n0, n1]⟩ : Shape).Idx → EReal

/-- The per-edge message on the lane-dense view. -/
def edge (h e : A 800000 128) (mu ls : A 1 128) : A 800000 128 :=
  fun i => h i * (mu (ix2 (0 : Fin 1) (i 1)) + Ideal.exp (ls (ix2 (0 : Fin 1) (i 1))) * e i)

theorem edge_apply (h e : A 800000 128) (mu ls : A 1 128) (r : Fin 800000) (l : Fin 128) :
    edge h e mu ls (ix2 r l) = h (ix2 r l) * (mu (ix2 (0 : Fin 1) l) + Ideal.exp (ls (ix2 (0 : Fin 1) l)) * e (ix2 r l)) := rfl

/-- A node row's linear layer after the in-degree scaling. -/
def lin (agg : A 100000 64) (nin : A 100000 1) (W : A 64 64) (b : A 1 64) : A 100000 64 :=
  fun i => (∑ k : Fin 64, (agg (ix2 (i 0) k) * nin (ix2 (i 0) (0 : Fin 1))) * W (ix2 k (i 1))) + b (ix2 (0 : Fin 1) (i 1))

theorem lin_apply (agg : A 100000 64) (nin : A 100000 1) (W : A 64 64) (b : A 1 64) (n : Fin 100000) (f : Fin 64) :
    lin agg nin W b (ix2 n f) = (∑ k : Fin 64, (agg (ix2 n k) * nin (ix2 n (0 : Fin 1))) * W (ix2 k f)) + b (ix2 (0 : Fin 1) f) := rfl

/-- The first layer's node stage: relu, then the out-degree scaling. -/
def nodeRelu (agg : A 100000 64) (nin : A 100000 1) (W : A 64 64) (b : A 1 64) (nout : A 100000 1) : A 100000 64 :=
  fun i => max (lin agg nin W b i) 0 * nout (ix2 (i 0) (0 : Fin 1))

theorem nodeRelu_apply (agg : A 100000 64) (nin : A 100000 1) (W : A 64 64) (b : A 1 64) (nout : A 100000 1) (n : Fin 100000) (f : Fin 64) :
    nodeRelu agg nin W b nout (ix2 n f) = max (lin agg nin W b (ix2 n f)) 0 * nout (ix2 n (0 : Fin 1)) := rfl

/-- A row's maximum, folded from −∞. -/
def rowMax (z : A 100000 64) (n : Fin 100000) : EReal :=
  (Finset.univ : Finset (Fin 64)).fold max (Ideal.ofBits .f32 0xFF800000#32) (fun k => z (ix2 n k))

/-- The second layer's node stage: the row softmax of the linear layer. -/
def nodeSoftmax (agg : A 100000 64) (nin : A 100000 1) (W : A 64 64) (b : A 1 64) : A 100000 64 :=
  fun i => Ideal.div (Ideal.exp (lin agg nin W b i - rowMax (lin agg nin W b) (i 0)))
    (∑ k : Fin 64, Ideal.exp (lin agg nin W b (ix2 (i 0) k) - rowMax (lin agg nin W b) (i 0)))

theorem nodeSoftmax_apply (agg : A 100000 64) (nin : A 100000 1) (W : A 64 64) (b : A 1 64) (n : Fin 100000) (f : Fin 64) :
    nodeSoftmax agg nin W b (ix2 n f) = Ideal.div (Ideal.exp (lin agg nin W b (ix2 n f) - rowMax (lin agg nin W b) n))
      (∑ k : Fin 64, Ideal.exp (lin agg nin W b (ix2 n k) - rowMax (lin agg nin W b) n)) := rfl

end Cert.Spec

end
-- ==== Proof.EdgeRegions.lean ====
/-
  The two edge regions of the two-layer graph convolution, read as whole arrays.

  Each edge region runs the same kernel body over a grid of 100 points: point `t` loads rows `8000·t … 8000·t + 7999`
  of the gathered features `h` and of the noise `eps` (both [800000, 128], the lane-dense view of the [1600000, 64]
  edge arrays), the one block of each weight row `mu`, `ls` ([1, 128]), and stores
  `h · (mu + exp(ls) · eps)` into the same rows of the output. Here: that stored value at one element of a block
  (`pay0_apply`), the same element against the layer function `Cert.Spec.edge` of whole arrays (`point_eq`), and per
  region the block a point writes back (`flushedK_eq`), the blocks' cover of the output array (`mem_blkK`, `coverK`)
  and the output array after the region (`finalK`), at any contents `V` of the buffers when the region is entered.
-/
import Idealize.ShloMosaic.Lib.Pipeline.Value
import Idealize.ShloMosaic.Lib.ValueIdx
import Idealize.ShloMosaic.Lib.ValueLayout
import Idealize.ShloMosaic.PureOps.Ideal.Laws
import proofs.«154065_j65000035058538_2_alg».proof.Proof.Gen.KernelIdeal.Frame
import proofs.«154065_j65000035058538_2_alg».proof.Proof.Spec

noncomputable section

namespace Cert.KernelIdeal.EdgeValue

open Idealize.ShloMosaic Idealize.ShloMosaic.TcCoe Idealize.SL.Sem Idealize.ShloMosaic.ValueIdx Cert.KernelIdeal Cert.KernelIdeal.Gen
open Idealize.ShloMosaic.Pipeline (Dat Cfg Window)

/-- The zero offsets of a rank-2 buffer's whole rectangle, as the constant function. -/
theorem hz : (![0, 0] : Fin 2 → Nat) = fun _ => 0 := funext fun a => by fin_cases a <;> rfl

/-- The edge kernel's stored value at row `p`, lane `q` of a block: the gathered feature times the sampled weight,
    `h[p, q] · (mu[0, q] + exp(ls[0, q]) · eps[p, q])`. -/
theorem pay0_apply (mu ls : Vec Ideal S1x128 .f32) (eps h : Vec Ideal S8000x128 .f32) (p : Fin 8000) (q : Fin 128) :
    k0_pay1 (F := Ideal) mu ls eps h (ix2 p q)
      = h (ix2 p q) * (mu (ix2 (0 : Fin 1) q) + Ideal.exp (ls (ix2 (0 : Fin 1) q)) * eps (ix2 p q)) := by
  unfold k0_pay1
  simp only [shapeCast_self]
  rw [mulf_apply, addf_apply, mulf_apply, broadcastTo_1b_ab_apply, broadcastTo_1b_ab_apply]
  rfl

/-- The second layer's edge kernel stores the same term. -/
theorem pay2_eq : k2_pay1 (F := Ideal) = k0_pay1 (F := Ideal) := rfl

/-- ONE ELEMENT of a block's stored value against the whole-array layer function: when the two row blocks at block
    index `y` hold the arrays `H`, `E` at array index `i`, the two one-row blocks hold the rows `M`, `L`, and `y` and `i`
    are in the same lane, the stored value at `y` is the layer function at `i`. -/
theorem point_eq (x0 x1 : Vec Ideal S8000x128 .f32) (x2 x3 : Vec Ideal S1x128 .f32)
    (H E : Cert.Spec.A 800000 128) (M L : Cert.Spec.A 1 128) (y : S8000x128.Idx) (i : S800000x128.Idx)
    (h0 : x0 y = H i) (h1 : x1 y = E i)
    (h2 : ∀ q : Fin 128, x2 (ix2 (0 : Fin 1) q) = M (ix2 (0 : Fin 1) q))
    (h3 : ∀ q : Fin 128, x3 (ix2 (0 : Fin 1) q) = L (ix2 (0 : Fin 1) q))
    (hq : (y 1).val = (i 1).val) :
    k0_pay1 (F := Ideal) x2 x3 x1 x0 y = Cert.Spec.edge H E M L i := by
  obtain ⟨p, q, rfl⟩ : ∃ (p : Fin 8000) (q : Fin 128), y = ix2 p q := ⟨y 0, y 1, eq_ix2 y⟩
  obtain ⟨r, l, rfl⟩ : ∃ (r : Fin 800000) (l : Fin 128), i = ix2 r l := ⟨i 0, i 1, eq_ix2 i⟩
  obtain rfl : q = l := Fin.ext hq
  rw [pay0_apply, Cert.Spec.edge_apply, h0, h1, h2, h3]

/-! ## Region 0: the first layer's edge messages -/

section Region0
variable (V : (c : Dev nD) → (b : Ref sig .tc) → Buf (Elt Ideal) ((c : Thread nD τ).loc b))

/-- The index maps over the grid: point `t` takes row block `t` of the two edge arrays and of the output, and the
    one block of each weight row. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the layer function of the arrays as the region finds them. -/
theorem flushed0_eq (c : Dev nD) (t : Fin cfg0.N) :
    (dat0 (F := Ideal) V c).flushed 4 t
      = ((cfg0.win 4).blk t).view.read (Elt Ideal) (Cert.Spec.edge (V c main_v30) (V c main_v31) (V c main_v35) (V c main_v39)) := by
  show (cfg0.win 4).cut (grid0.coords t) ((dat0 V c).after 4 t) = _
  rw [after0_4]
  unfold out0_4
  rw [View.canon_unit_zero hz]
  simp only [View.ld_unit_zero (S := S8000x128) hz, View.ld_unit_zero (S := S1x128) hz]

  obtain ⟨a0, a1, b0, b1, m0, m1, l0, l1, o0, o1⟩ := idx_facts0 t
  funext j
  have hj0 : (j 0).val < 8000 := (j 0).isLt
  have hj1 : (j 1).val < 128 := (j 1).isLt
  show k0_pay1 (F := Ideal) (iblk0 V c 2 t) (iblk0 V c 3 t) (iblk0 V c 1 t) (iblk0 V c 0 t) j
      = Cert.Spec.edge (V c main_v30) (V c main_v31) (V c main_v35) (V c main_v39) (((cfg0.win 4).blk t).view.emb j)
  refine point_eq (iblk0 V c 0 t) (iblk0 V c 1 t) (iblk0 V c 2 t) (iblk0 V c 3 t) _ _ _ _ j _ ?_ ?_ ?_ ?_ ?_
  · show V c main_v30 (((cfg0.win 0).blk t).view.emb j) = V c main_v30 (((cfg0.win 4).blk t).view.emb j)
    refine congrArg (V c main_v30) (funext fun a => Fin.ext ?_)
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 128 + 1 * (j 1).val = win0_4.index t (1 : Fin 2) * 128 + 1 * (j 1).val; omega
  · show V c main_v31 (((cfg0.win 1).blk t).view.emb j) = V c main_v31 (((cfg0.win 4).blk t).view.emb j)
    refine congrArg (V c main_v31) (funext fun a => Fin.ext ?_)
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 128 + 1 * (j 1).val = win0_4.index t (1 : Fin 2) * 128 + 1 * (j 1).val; omega
  · intro q
    show V c main_v35 (((cfg0.win 2).blk t).view.emb (ix2 (0 : Fin 1) q)) = V c main_v35 (ix2 (0 : Fin 1) q)
    refine congrArg (V c main_v35) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · intro q
    show V c main_v39 (((cfg0.win 3).blk t).view.emb (ix2 (0 : Fin 1) q)) = V c main_v39 (ix2 (0 : Fin 1) q)
    refine congrArg (V c main_v39) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  · show (j 1).val = win0_4.index t (1 : Fin 2) * 128 + 1 * (j 1).val; omega

/-- An index of the output array is in point `t`'s block iff each coordinate is in the block's range on its axis. -/
theorem mem_blk0 (t : Fin cfg0.N) (i : S800000x128.Idx) :
    i ∈ ((cfg0.win 4).blk t).view.set ↔ ∀ a : Fin 2, win0_4.index t a * S8000x128.size a ≤ (i a).val ∧ (i a).val < win0_4.index t a * S8000x128.size a + S8000x128.size a := by
  show i ∈ ((View.whole main_v40).slice (win0_4.rect t)).set ↔ _
  rw [View.set_slice_whole, Rect.mem_set_unit]
  exact Iff.rfl

/-- Every index of the output array is in some point's block: row `r` is in block `r / 8000`. -/
theorem cover0 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  obtain ⟨t, ht⟩ : ∃ t : Fin cfg0.N, t.val = (i 0).val / 8000 :=
    ⟨⟨(i 0).val / 8000, by rw [show cfg0.N = 100 from N_0]; omega⟩, rfl⟩
  obtain ⟨a0, a1, b0, b1, m0, m1, l0, l1, o0, o1⟩ := idx_facts0 t
  refine ⟨t, flush0_4 t, ?_⟩
  rw [mem_blk0]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 128 ≤ (i 1).val ∧ (i 1).val < win0_4.index t (1 : Fin 2) * 128 + 128; omega

/-- THE OUTPUT ARRAY after the region: the first layer's edge messages, as one function of the four arrays the region
    finds. -/
theorem final0 (c : Dev nD) :
    (dat0 (F := Ideal) V c).arrAt 4 cfg0.N = Cert.Spec.edge (V c main_v30) (V c main_v31) (V c main_v35) (V c main_v39) :=
  (dat0 (F := Ideal) V c).arrAt_eq_of_cover 4 _ (fun t _ => flushed0_eq V c t) (cover0)

end Region0

/-! ## Region 2: the second layer's edge messages -/

section Region2
variable (V : (c : Dev nD) → (b : Ref sig .tc) → Buf (Elt Ideal) ((c : Thread nD τ).loc b))

/-- The index maps over the grid: point `t` takes row block `t` of the two edge arrays and of the output, and the
    one block of each weight row. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the layer function of the arrays as the region finds them. -/
theorem flushed2_eq (c : Dev nD) (t : Fin cfg2.N) :
    (dat2 (F := Ideal) V c).flushed 4 t
      = ((cfg2.win 4).blk t).view.read (Elt Ideal) (Cert.Spec.edge (V c main_v54) (V c main_v55) (V c main_v59) (V c main_v63)) := by
  show (cfg2.win 4).cut (grid2.coords t) ((dat2 V c).after 4 t) = _
  rw [after2_4]
  unfold out2_4
  rw [View.canon_unit_zero hz]
  simp only [View.ld_unit_zero (S := S8000x128) hz, View.ld_unit_zero (S := S1x128) hz]
  rw [pay2_eq]
  obtain ⟨a0, a1, b0, b1, m0, m1, l0, l1, o0, o1⟩ := idx_facts2 t
  funext j
  have hj0 : (j 0).val < 8000 := (j 0).isLt
  have hj1 : (j 1).val < 128 := (j 1).isLt
  show k0_pay1 (F := Ideal) (iblk2 V c 2 t) (iblk2 V c 3 t) (iblk2 V c 1 t) (iblk2 V c 0 t) j
      = Cert.Spec.edge (V c main_v54) (V c main_v55) (V c main_v59) (V c main_v63) (((cfg2.win 4).blk t).view.emb j)
  refine point_eq (iblk2 V c 0 t) (iblk2 V c 1 t) (iblk2 V c 2 t) (iblk2 V c 3 t) _ _ _ _ j _ ?_ ?_ ?_ ?_ ?_
  · show V c main_v54 (((cfg2.win 0).blk t).view.emb j) = V c main_v54 (((cfg2.win 4).blk t).view.emb j)
    refine congrArg (V c main_v54) (funext fun a => Fin.ext ?_)
    match a with
    | ⟨0, _⟩ => show win2_0.index t (0 : Fin 2) * 8000 + 1 * (j 0).val = win2_4.index t (0 : Fin 2) * 8000 + 1 * (j 0).val; omega
    | ⟨1, _⟩ => show win2_0.index t (1 : Fin 2) * 128 + 1 * (j 1).val = win2_4.index t (1 : Fin 2) * 128 + 1 * (j 1).val; omega
  · show V c main_v55 (((cfg2.win 1).blk t).view.emb j) = V c main_v55 (((cfg2.win 4).blk t).view.emb j)
    refine congrArg (V c main_v55) (funext fun a => Fin.ext ?_)
    match a with
    | ⟨0, _⟩ => show win2_1.index t (0 : Fin 2) * 8000 + 1 * (j 0).val = win2_4.index t (0 : Fin 2) * 8000 + 1 * (j 0).val; omega
    | ⟨1, _⟩ => show win2_1.index t (1 : Fin 2) * 128 + 1 * (j 1).val = win2_4.index t (1 : Fin 2) * 128 + 1 * (j 1).val; omega
  · intro q
    show V c main_v59 (((cfg2.win 2).blk t).view.emb (ix2 (0 : Fin 1) q)) = V c main_v59 (ix2 (0 : Fin 1) q)
    refine congrArg (V c main_v59) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · intro q
    show V c main_v63 (((cfg2.win 3).blk t).view.emb (ix2 (0 : Fin 1) q)) = V c main_v63 (ix2 (0 : Fin 1) q)
    refine congrArg (V c main_v63) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show (j 1).val = win2_4.index t (1 : Fin 2) * 128 + 1 * (j 1).val; omega

/-- An index of the output array is in point `t`'s block iff each coordinate is in the block's range on its axis. -/
theorem mem_blk2 (t : Fin cfg2.N) (i : S800000x128.Idx) :
    i ∈ ((cfg2.win 4).blk t).view.set ↔ ∀ a : Fin 2, win2_4.index t a * S8000x128.size a ≤ (i a).val ∧ (i a).val < win2_4.index t a * S8000x128.size a + S8000x128.size a := by
  show i ∈ ((View.whole main_v64).slice (win2_4.rect t)).set ↔ _
  rw [View.set_slice_whole, Rect.mem_set_unit]
  exact Iff.rfl

/-- Every index of the output array is in some point's block: row `r` is in block `r / 8000`. -/
theorem cover2 (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  obtain ⟨t, ht⟩ : ∃ t : Fin cfg2.N, t.val = (i 0).val / 8000 :=
    ⟨⟨(i 0).val / 8000, by rw [show cfg2.N = 100 from N_2]; omega⟩, rfl⟩
  obtain ⟨a0, a1, b0, b1, m0, m1, l0, l1, o0, o1⟩ := idx_facts2 t
  refine ⟨t, flush2_4 t, ?_⟩
  rw [mem_blk2]
  intro a
  match a with
  | ⟨0, _⟩ => show win2_4.index t (0 : Fin 2) * 8000 ≤ (i 0).val ∧ (i 0).val < win2_4.index t (0 : Fin 2) * 8000 + 8000; omega
  | ⟨1, _⟩ => show win2_4.index t (1 : Fin 2) * 128 ≤ (i 1).val ∧ (i 1).val < win2_4.index t (1 : Fin 2) * 128 + 128; omega

/-- THE OUTPUT ARRAY after the region: the second layer's edge messages, as one function of the four arrays the region
    finds. -/
theorem final2 (c : Dev nD) :
    (dat2 (F := Ideal) V c).arrAt 4 cfg2.N = Cert.Spec.edge (V c main_v54) (V c main_v55) (V c main_v59) (V c main_v63) :=
  (dat2 (F := Ideal) V c).arrAt_eq_of_cover 4 _ (fun t _ => flushed2_eq V c t) (cover2)

end Region2

end Cert.KernelIdeal.EdgeValue

end
-- ==== Proof.NodeReluRegion.lean ====
/-
  The first layer's node stage (the second pipelined region: relu of the linear layer, then the out-degree
  scaling), read as a whole-array function: after the region's 50 grid points the output array holds
  `Spec.nodeRelu` of the five input arrays as the region finds them.

  * the payload of one block at an index: a column broadcast, a product, a [2000,64] x [64,64] contraction into a zero
    accumulator, a row broadcast of the bias, the maximum with zero, a second column broadcast and product;
  * each input block read where the output block's rows lie (block t holds rows 2000 t ... 2000 t + 1999; the weight
    and the bias are whole);
  * the 50 output blocks cover the array, so the array ends holding the function.
-/
import Idealize.ShloMosaic.Lib.Pipeline.Value
import Idealize.ShloMosaic.Lib.ValueIdx
import Idealize.ShloMosaic.Lib.ValueLayout
import Idealize.ShloMosaic.PureOps.Ideal.Laws
import proofs.«154065_j65000035058538_2_alg».proof.Proof.Gen.KernelIdeal.Frame
import proofs.«154065_j65000035058538_2_alg».proof.Proof.Spec

noncomputable section

namespace Cert.KernelIdeal.NodeReluValue

open Idealize.ShloMosaic Idealize.ShloMosaic.TcCoe Idealize.SL.Sem Idealize.ShloMosaic.ValueIdx Cert.KernelIdeal Cert.KernelIdeal.Gen
open Idealize.ShloMosaic.Pipeline (Dat Cfg Window)

/-! ## The payload at an index -/

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the region's contraction keeps the output's row … -/
theorem lhsIdx_row (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl

/-- … and the right operand's keeps the output's column. -/
theorem rhsIdx_col (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The contraction of the region's `tpu.matmul` into the zero accumulator, at `(p, q)`: the sum over the 64 shared
    coordinates of the left operand's row `p` times the right operand's column `q`. -/
theorem matmul_zero_apply (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k :=
    funext fun a => Fin.ext (by
      match a with
      | ⟨0, _⟩ => exact lhsIdx_row _ _
      | ⟨1, _⟩ => exact (dot_S2000x64_S64x64_S2000x64_1_0_0_1_n_n.lhsIdx_val_of_single rfl (ix2 p q) _).trans hk)
  have er : dot_S2000x64_S64x64_S2000x64_1_0_0_1_n_n.rhsIdx (ix2 p q) ((contrEquiv1 dot_S2000x64_S64x64_S2000x64_1_0_0_1_n_n 64 rfl rfl).symm k) = ix2 k q :=
    funext fun a => Fin.ext (by
      match a with
      | ⟨0, _⟩ => exact (dot_S2000x64_S64x64_S2000x64_1_0_0_1_n_n.rhsIdx_val_of_single rfl (ix2 p q) _).trans hk
      | ⟨1, _⟩ => exact rhsIdx_col _ _)
  rw [el, er]

/-- The block's payload at `(p, q)`: the linear layer of row `p` (the row scaled by its in-degree factor, contracted with
    the weight's column `q`, plus the bias), its maximum with zero, scaled by the row's out-degree factor. -/
theorem pay_apply (x0 : Vec Ideal S2000x64 .f32) (x1 : Vec Ideal S2000x1 .f32) (x2 : Vec Ideal S64x64 .f32)
    (x3 : Vec Ideal S1x64 .f32) (x4 : Vec Ideal S2000x1 .f32) (p : Fin 2000) (q : Fin 64) :
    k1_pay1 (F := Ideal) x0 x1 x2 x3 x4 (ix2 p q)
      = max ((∑ k : Fin 64, (x0 (ix2 p k) * x1 (ix2 p (0 : Fin 1))) * x2 (ix2 k q)) + x3 (ix2 (0 : Fin 1) q)) 0
          * x4 (ix2 p (0 : Fin 1)) := by
  unfold k1_pay1
  simp only [shapeCast_self]
  rw [mulf_apply, maximumf_apply, addf_apply, broadcast_apply, matmul_zero_apply, broadcastTo_a1_ab_apply, broadcastTo_1b_ab_apply]
  simp only [truncf_apply, mulf_apply, broadcastTo_a1_ab_apply]
  show max _ (Ideal.ofBits .f32 0x00000000#32) * _ = _
  rw [Ideal.ofBits_zero_f32]

/-- With each input block read off its array where the output block's row lies, the payload at `(p, q)` is the node
    stage of the arrays at `(r, q)`. -/
theorem point_eq (x0 : Vec Ideal S2000x64 .f32) (x1 : Vec Ideal S2000x1 .f32) (x2 : Vec Ideal S64x64 .f32)
    (x3 : Vec Ideal S1x64 .f32) (x4 : Vec Ideal S2000x1 .f32)
    (agg : Cert.Spec.A 100000 64) (nin : Cert.Spec.A 100000 1) (W : Cert.Spec.A 64 64) (b : Cert.Spec.A 1 64)
    (nout : Cert.Spec.A 100000 1) (p : Fin 2000) (q : Fin 64) (r : Fin 100000)
    (h0 : ∀ k : Fin 64, x0 (ix2 p k) = agg (ix2 r k))
    (h1 : x1 (ix2 p (0 : Fin 1)) = nin (ix2 r (0 : Fin 1)))
    (h2 : ∀ k : Fin 64, x2 (ix2 k q) = W (ix2 k q))
    (h3 : x3 (ix2 (0 : Fin 1) q) = b (ix2 (0 : Fin 1) q))
    (h4 : x4 (ix2 p (0 : Fin 1)) = nout (ix2 r (0 : Fin 1))) :
    k1_pay1 (F := Ideal) x0 x1 x2 x3 x4 (ix2 p q) = Cert.Spec.nodeRelu agg nin W b nout (ix2 r q) := by
  rw [pay_apply, Cert.Spec.nodeRelu_apply, Cert.Spec.lin_apply, h1, h3, h4]
  simp only [h0, h2]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-blocked windows sit at block row `t`, the weight and the bias at
    block `(0, 0)`; the grid has 50 points. -/
theorem idx_facts : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Block `t` of the aggregated features at `(p, k)` is the array at row `2000 t + p`. -/
theorem read_agg (c : Dev nD) (t : Fin cfg1.N) (p : Fin 2000) (k : Fin 64) (r : Fin 100000)
    (hr : r.val = t.val * 2000 + p.val) : iblk1 V c 0 t (ix2 p k : S2000x64.Idx) = V c main_v44 (ix2 r k : S100000x64.Idx) := by
  obtain ⟨-, e00, e01, -⟩ := idx_facts t
  show V c main_v44 (((cfg1.win 0).blk t).view.emb (ix2 p k : S2000x64.Idx)) = V c main_v44 (ix2 r k : S100000x64.Idx)
  refine congrArg (V c main_v44) (funext fun a => Fin.ext ?_)
  match a with
  | ⟨0, _⟩ => show win1_0.index t (0 : Fin 2) * 2000 + 1 * p.val = r.val; omega
  | ⟨1, _⟩ => show win1_0.index t (1 : Fin 2) * 64 + 1 * k.val = k.val; omega

/-- Block `t` of the in-degree factors at `(p, 0)` is the array at row `2000 t + p`. -/
theorem read_nin (c : Dev nD) (t : Fin cfg1.N) (p : Fin 2000) (r : Fin 100000)
    (hr : r.val = t.val * 2000 + p.val) :
    iblk1 V c 1 t (ix2 p (0 : Fin 1) : S2000x1.Idx) = V c main_v20 (ix2 r (0 : Fin 1) : S100000x1.Idx) := by
  obtain ⟨-, -, -, e10, e11, -⟩ := idx_facts t
  show V c main_v20 (((cfg1.win 1).blk t).view.emb (ix2 p (0 : Fin 1) : S2000x1.Idx)) = V c main_v20 (ix2 r (0 : Fin 1) : S100000x1.Idx)
  refine congrArg (V c main_v20) (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- The weight's one block is the weight. -/
theorem read_W (c : Dev nD) (t : Fin cfg1.N) (k q : Fin 64) :
    iblk1 V c 2 t (ix2 k q : S64x64.Idx) = V c main_arg7 (ix2 k q : S64x64.Idx) := by
  obtain ⟨-, -, -, -, -, e20, e21, -⟩ := idx_facts t
  show V c main_arg7 (((cfg1.win 2).blk t).view.emb (ix2 k q : S64x64.Idx)) = V c main_arg7 (ix2 k q : S64x64.Idx)
  refine congrArg (V c main_arg7) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The bias's one block is the bias. -/
theorem read_b (c : Dev nD) (t : Fin cfg1.N) (q : Fin 64) :
    iblk1 V c 3 t (ix2 (0 : Fin 1) q : S1x64.Idx) = V c main_v45 (ix2 (0 : Fin 1) q : S1x64.Idx) := by
  obtain ⟨-, -, -, -, -, -, -, e30, e31, -⟩ := idx_facts t
  show V c main_v45 (((cfg1.win 3).blk t).view.emb (ix2 (0 : Fin 1) q : S1x64.Idx)) = V c main_v45 (ix2 (0 : Fin 1) q : S1x64.Idx)
  refine congrArg (V c main_v45) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- Block `t` of the out-degree factors at `(p, 0)` is the array at row `2000 t + p`. -/
theorem read_nout (c : Dev nD) (t : Fin cfg1.N) (p : Fin 2000) (r : Fin 100000)
    (hr : r.val = t.val * 2000 + p.val) :
    iblk1 V c 4 t (ix2 p (0 : Fin 1) : S2000x1.Idx) = V c main_v13 (ix2 r (0 : Fin 1) : S100000x1.Idx) := by
  obtain ⟨-, -, -, -, -, -, -, -, -, e40, e41, -⟩ := idx_facts t
  show V c main_v13 (((cfg1.win 4).blk t).view.emb (ix2 p (0 : Fin 1) : S2000x1.Idx)) = V c main_v13 (ix2 r (0 : Fin 1) : S100000x1.Idx)
  refine congrArg (V c main_v13) (funext fun a => Fin.ext ?_)
  match a with
  | ⟨0, _⟩ => show win1_4.index t (0 : Fin 2) * 2000 + 1 * p.val = r.val; omega
  | ⟨1, _⟩ => show win1_4.index t (1 : Fin 2) * 1 + 1 * 0 = 0; omega

/-- WHAT POINT `t` WRITES BACK is block `t` of the node stage of the five arrays as the region finds them. -/
theorem flushed_eq (c : Dev nD) (t : Fin cfg1.N) :
    (dat1 (F := Ideal) V c).flushed 5 t = ((cfg1.win 5).blk t).view.read (Elt Ideal)
      (Cert.Spec.nodeRelu (V c main_v44) (V c main_v20) (V c main_arg7) (V c main_v45) (V c main_v13)) := by
  show (cfg1.win 5).cut (grid1.coords t) ((dat1 (F := Ideal) V c).after 5 t) = _
  rw [after1_5]
  unfold out1_5
  rw [View.canon_unit_zero hz]
  simp only [View.ld_unit_zero (S := S2000x64) hz, View.ld_unit_zero (S := S2000x1) hz, View.ld_unit_zero (S := S64x64) hz,
    View.ld_unit_zero (S := S1x64) hz]
  funext j
  have hj0 : (j 0).val < 2000 := (j 0).isLt
  have hj1 : (j 1).val < 64 := (j 1).isLt
  obtain ⟨ht, -, -, -, -, -, -, -, -, -, -, e50, e51⟩ := idx_facts t
  obtain ⟨p, hp⟩ : ∃ p : Fin 2000, p.val = (j 0).val := ⟨⟨_, hj0⟩, rfl⟩
  obtain ⟨q, hq⟩ : ∃ q : Fin 64, q.val = (j 1).val := ⟨⟨_, hj1⟩, rfl⟩
  obtain ⟨r, hr⟩ : ∃ r : Fin 100000, r.val = t.val * 2000 + p.val := ⟨⟨t.val * 2000 + p.val, by have := p.isLt; omega⟩, rfl⟩
  have hx : (cfg1.win 5).xinj (grid1.coords t) j = (ix2 p q : S2000x64.Idx) := funext fun a => Fin.ext (by
    match a with
    | ⟨0, _⟩ => exact hp.symm
    | ⟨1, _⟩ => exact hq.symm)
  have he : ((cfg1.win 5).blk t).view.emb j = (ix2 r q : S100000x64.Idx) := funext fun a => Fin.ext (by
    match a with
    | ⟨0, _⟩ => show win1_5.index t (0 : Fin 2) * 2000 + 1 * (j 0).val = r.val; omega
    | ⟨1, _⟩ => show win1_5.index t (1 : Fin 2) * 64 + 1 * (j 1).val = q.val; omega)
  show k1_pay1 (F := Ideal) (iblk1 V c 0 t) (iblk1 V c 1 t) (iblk1 V c 2 t) (iblk1 V c 3 t) (iblk1 V c 4 t)
      ((cfg1.win 5).xinj (grid1.coords t) j)
    = Cert.Spec.nodeRelu (V c main_v44) (V c main_v20) (V c main_arg7) (V c main_v45) (V c main_v13)
      (((cfg1.win 5).blk t).view.emb j)
  rw [hx, he]
  exact point_eq (iblk1 V c 0 t) (iblk1 V c 1 t) (iblk1 V c 2 t) (iblk1 V c 3 t) (iblk1 V c 4 t)
    (V c main_v44) (V c main_v20) (V c main_arg7) (V c main_v45) (V c main_v13) p q r
    (fun k => read_agg V c t p k r hr) (read_nin V c t p r hr) (fun k => read_W V c t k q) (read_b V c t q)
    (read_nout V c t p r hr)

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v46).slice (win1_5.rect t)).set ↔ _
  rw [View.set_slice_whole, Rect.mem_set_unit]
  exact Iff.rfl

/-- Every index of the array lies in the block of the point its row names: row `n` in block `n / 2000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 64 ≤ (i 1).val ∧ (i 1).val < win1_5.index t (1 : Fin 2) * 64 + 64
    omega

/-- THE ARRAY after the region: the node stage of the five input arrays as the region finds them. -/
theorem final1 (c : Dev nD) : (dat1 (F := Ideal) V c).arrAt 5 cfg1.N
    = Cert.Spec.nodeRelu (V c main_v44) (V c main_v20) (V c main_arg7) (V c main_v45) (V c main_v13) :=
  (dat1 (F := Ideal) V c).arrAt_eq_of_cover 5 _ (fun t _ => flushed_eq V c t) cover

end Blocks

end Cert.KernelIdeal.NodeReluValue

end
-- ==== Proof.NodeSoftmaxRegion.lean ====
/-
  The second layer's node stage, read as a whole array. The node kernel works on blocks of 2000 rows of the
  aggregated features [100000, 64]: on a block it scales each row by its in-degree factor, multiplies by the
  64 × 64 weights, adds the bias row, and takes the softmax of each row of 64 entries (the row's maximum folded
  from −∞, the exponentials of the differences, divided by their sum). Each row of a block is a whole row of the
  array, so block t of the result is block t of the row softmax of the linear layer of the whole arrays, and the
  fifty blocks fill the result.
-/
import Idealize.ShloMosaic.Lib.Pipeline.Value
import Idealize.ShloMosaic.Lib.ValueIdx
import Idealize.ShloMosaic.Lib.ValueLayout
import Idealize.ShloMosaic.PureOps.Ideal.Laws
import proofs.«154065_j65000035058538_2_alg».proof.Proof.Gen.KernelIdeal.Frame
import proofs.«154065_j65000035058538_2_alg».proof.Proof.Spec

noncomputable section

namespace Cert.KernelIdeal.NodeSoftmaxValue

open Idealize.ShloMosaic Idealize.ShloMosaic.TcCoe Idealize.SL.Sem Idealize.ShloMosaic.ValueIdx Cert.KernelIdeal Cert.KernelIdeal.Gen
open Idealize.ShloMosaic.Pipeline (Dat Cfg Window)

/-! ## Layout operations with a trailing unit axis, read at an index -/

section Layout
variable {α : Type}

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The reductions along a row of a block -/

/-- The index of a [2000, 64] block over row p with column k inserted is (p, k). -/
theorem lift_row (h : S2000x64.Reduces [1] S2000) (p : Fin 2000) (k : Fin (S2000x64.size 1)) :
    h.lift (ix1 p) k = ix2 p (⟨k.val, k.isLt⟩ : Fin 64) := by
  funext c; apply Fin.ext
  fin_cases c <;> rfl

/-- The sum along the 64 columns of row p. -/
theorem rowSum_apply (src : FVec Ideal S2000x64 .f32) (h : S2000x64.Reduces [1] S2000) (hφ : FKind.Formats .f32)
    (hacc : (0x00000000#32 : BitVec 32) = FKind.add.neutral .f32 hφ) (p : Fin 2000) :
    multiReduction (F := Ideal) .add [1] S2000 src 0x00000000#32 h hφ hacc (ix1 p) = ∑ k : Fin 64, src (ix2 p k) :=
  (Ideal.multiReduction_add_single src 0x00000000#32 h hφ hacc (ix1 p)).trans
    (Finset.sum_congr rfl fun k _ => congrArg src (lift_row h p k))

/-- The maximum along the 64 columns of row p, folded from −∞. -/
theorem rowMax_apply (src : FVec Ideal S2000x64 .f32) (h : S2000x64.Reduces [1] S2000) (hφ : FKind.Formats .f32)
    (hacc : (0xFF800000#32 : BitVec 32) = FKind.maximumf.neutral .f32 hφ) (p : Fin 2000) :
    multiReduction (F := Ideal) .maximumf [1] S2000 src 0xFF800000#32 h hφ hacc (ix1 p)
      = (Finset.univ : Finset (Fin 64)).fold max (Ideal.ofBits .f32 0xFF800000#32) (fun k => src (ix2 p k)) :=
  (Ideal.multiReduction_maximumf_single src 0xFF800000#32 h hφ hacc (ix1 p)).trans
    (congrArg (fun f => Finset.fold max (Ideal.ofBits .f32 0xFF800000#32) f (Finset.univ : Finset (Fin 64)))
      (funext fun k => congrArg src (lift_row h p k)))

/-! ## The body's value on a block -/

/-- The linear layer of a block: each row scaled by its in-degree factor, times the weights, plus the bias row. -/
def linBlk (x0 : Vec Ideal S2000x64 .f32) (x1 : Vec Ideal S2000x1 .f32) (x2 : Vec Ideal S64x64 .f32) (x3 : Vec Ideal S1x64 .f32) :
    FVec Ideal S2000x64 .f32 :=
  addf
    (matmul dot_S2000x64_S64x64_S2000x64_1_0_0_1_n_n none
      (truncf .bf16 (mulf (shapeCast S2000x64 x0 shapeCasts_S2000x64_S2000x64)
        (broadcastTo S2000x64 (shapeCast S2000x1 x1 shapeCasts_S2000x1_S2000x1) broadcasts_S2000x1_S2000x64)) bitsLt_bf16_f32)
      (truncf .bf16 x2 bitsLt_bf16_f32)
      (constant (F := Ideal) S2000x64 .f32 0x00000000#32))
    (broadcastTo S2000x64 (shapeCast S1x64 x3 shapeCasts_S1x64_S1x64) broadcasts_S1x64_S2000x64)

/-- The row softmax of a block: the exponentials of the differences from the row's maximum, over their sum. -/
def softmaxBlk (z : FVec Ideal S2000x64 .f32) : FVec Ideal S2000x64 .f32 :=
  divf
    (exp (subf z (broadcastTo S2000x64 (shapeCast S2000x1
      (multiReduction (F := Ideal) .maximumf [1] S2000 z 0xFF800000#32 reduces_S2000x64_S2000 (.inl rfl) rfl) shapeCasts_S2000_S2000x1)
      broadcasts_S2000x1_S2000x64)))
    (broadcastTo S2000x64 (shapeCast S2000x1
      (multiReduction (F := Ideal) .add [1] S2000
        (exp (subf z (broadcastTo S2000x64 (shapeCast S2000x1
          (multiReduction (F := Ideal) .maximumf [1] S2000 z 0xFF800000#32 reduces_S2000x64_S2000 (.inl rfl) rfl) shapeCasts_S2000_S2000x1)
          broadcasts_S2000x1_S2000x64)))
        0x00000000#32 reduces_S2000x64_S2000 (.inl rfl) rfl) shapeCasts_S2000_S2000x1)
      broadcasts_S2000x1_S2000x64)

/-- The body's payload is the row softmax of the linear layer of its loaded blocks. -/
theorem pay_eq (x0 : Vec Ideal S2000x64 .f32) (x1 : Vec Ideal S2000x1 .f32) (x2 : Vec Ideal S64x64 .f32) (x3 : Vec Ideal S1x64 .f32) :
    k3_pay1 (F := Ideal) x0 x1 x2 x3 = softmaxBlk (linBlk x0 x1 x2 x3) := rfl

/-! The matrix product's operand indices at output index i and contracted coordinate q: (i 0, q) and (q, i 1). -/

theorem lhs_blk_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_blk_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_blk_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_blk_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block's matrix product at (p, q): the sum over the 64 contracted coordinates. -/
theorem matmul_apply_blk (lhs : FVec Ideal S2000x64 .bf16) (rhs : FVec Ideal S64x64 .bf16) (p : Fin 2000) (q : Fin 64) :
    matmul dot_S2000x64_S64x64_S2000x64_1_0_0_1_n_n none lhs rhs (constant (F := Ideal) S2000x64 .f32 0x00000000#32) (ix2 p q)
      = ∑ k : Fin 64, lhs (ix2 p k) * rhs (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k :=
    funext fun a => Fin.ext (by
      match a with
      | ⟨0, _⟩ => exact lhs_blk_0 _ _
      | ⟨1, _⟩ => exact (lhs_blk_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q :=
    funext fun a => Fin.ext (by
      match a with
      | ⟨0, _⟩ => exact (rhs_blk_0 _ _).trans hk
      | ⟨1, _⟩ => exact rhs_blk_1 _ _)
  rw [el, er]

/-- The linear layer of a block at (p, q). -/
theorem linBlk_apply (x0 : Vec Ideal S2000x64 .f32) (x1 : Vec Ideal S2000x1 .f32) (x2 : Vec Ideal S64x64 .f32) (x3 : Vec Ideal S1x64 .f32)
    (p : Fin 2000) (q : Fin 64) :
    linBlk x0 x1 x2 x3 (ix2 p q)
      = (∑ k : Fin 64, (x0 (ix2 p k) * x1 (ix2 p (0 : Fin 1))) * x2 (ix2 k q)) + x3 (ix2 (0 : Fin 1) q) := by
  unfold linBlk
  rw [addf_apply, matmul_apply_blk, shapeCast_self, shapeCast_self, shapeCast_self, broadcastTo_1b_ab_apply]
  refine congrArg (· + x3 (ix2 (0 : Fin 1) q)) (Finset.sum_congr rfl fun k _ => ?_)
  rw [truncf_apply, truncf_apply, mulf_apply, broadcastTo_a1_ab_apply]

/-- The row softmax of a block at (p, q). -/
theorem softmaxBlk_apply (z : FVec Ideal S2000x64 .f32) (p : Fin 2000) (q : Fin 64) :
    softmaxBlk z (ix2 p q)
      = Ideal.div (Ideal.exp (z (ix2 p q) - (Finset.univ : Finset (Fin 64)).fold max (Ideal.ofBits .f32 0xFF800000#32) (fun k => z (ix2 p k))))
          (∑ j : Fin 64, Ideal.exp (z (ix2 p j) - (Finset.univ : Finset (Fin 64)).fold max (Ideal.ofBits .f32 0xFF800000#32) (fun k => z (ix2 p k)))) := by
  have hexp : ∀ j : Fin 64, exp (subf z (broadcastTo S2000x64 (shapeCast S2000x1
        (multiReduction (F := Ideal) .maximumf [1] S2000 z 0xFF800000#32 reduces_S2000x64_S2000 (.inl rfl) rfl) shapeCasts_S2000_S2000x1)
        broadcasts_S2000x1_S2000x64)) (ix2 p j)
      = Ideal.exp (z (ix2 p j) - (Finset.univ : Finset (Fin 64)).fold max (Ideal.ofBits .f32 0xFF800000#32) (fun k => z (ix2 p k))) := by
    intro j
    show Ideal.exp (subf z _ (ix2 p j)) = _
    rw [subf_apply, broadcastTo_a1_ab_apply, shapeCast_a_a1_apply]
    exact congrArg (fun m => Ideal.exp (z (ix2 p j) - m)) (rowMax_apply z _ _ _ p)
  unfold softmaxBlk
  rw [divf_apply, broadcastTo_a1_ab_apply, shapeCast_a_a1_apply]
  exact congrArg₂ Ideal.div (hexp q) ((rowSum_apply _ _ _ _ p).trans (Finset.sum_congr rfl fun j _ => hexp j))

/-! ## A block of the result is a block of the whole-array function -/

/-- On a block whose rows are rows b·2000 … b·2000 + 1999 of the arrays (the weights and the bias row whole), the
    body's payload at a block index is the node stage of the whole arrays at the array index over it. -/
theorem pay_eq_spec (A0 : Spec.A 100000 64) (A1 : Spec.A 100000 1) (A2 : Spec.A 64 64) (A3 : Spec.A 1 64)
    (x0 : Vec Ideal S2000x64 .f32) (x1 : Vec Ideal S2000x1 .f32) (x2 : Vec Ideal S64x64 .f32) (x3 : Vec Ideal S1x64 .f32) (b : Nat)
    (h0 : ∀ (p : Fin 2000) (k : Fin 64) (n : Fin 100000), n.val = b * 2000 + p.val → x0 (ix2 p k) = A0 (ix2 n k))
    (h1 : ∀ (p : Fin 2000) (n : Fin 100000), n.val = b * 2000 + p.val → x1 (ix2 p (0 : Fin 1)) = A1 (ix2 n (0 : Fin 1)))
    (h2 : ∀ (k q : Fin 64), x2 (ix2 k q) = A2 (ix2 k q))
    (h3 : ∀ q : Fin 64, x3 (ix2 (0 : Fin 1) q) = A3 (ix2 (0 : Fin 1) q))
    (y : S2000x64.Idx) (i : S100000x64.Idx) (hi0 : (i 0).val = b * 2000 + (y 0).val) (hi1 : (i 1).val = (y 1).val) :
    k3_pay1 (F := Ideal) x0 x1 x2 x3 y = Spec.nodeSoftmax A0 A1 A2 A3 i := by
  obtain ⟨p, q, rfl⟩ : ∃ (p : Fin 2000) (q : Fin 64), y = ix2 p q := ⟨y 0, y 1, eq_ix2 y⟩
  obtain ⟨n, f, rfl⟩ : ∃ (n : Fin 100000) (f : Fin 64), i = ix2 n f := ⟨i 0, i 1, eq_ix2 i⟩
  have hn : n.val = b * 2000 + p.val := hi0
  obtain rfl : f = q := Fin.ext hi1
  have hl : ∀ k : Fin 64, linBlk x0 x1 x2 x3 (ix2 p k) = Spec.lin A0 A1 A2 A3 (ix2 n k) := by
    intro k
    rw [linBlk_apply, Spec.lin_apply, h1 p n hn, h3 k]
    refine congrArg (· + A3 (ix2 (0 : Fin 1) k)) (Finset.sum_congr rfl fun j _ => ?_)
    rw [h0 p j n hn, h2 j k]
  have hm : (Finset.univ : Finset (Fin 64)).fold max (Ideal.ofBits .f32 0xFF800000#32) (fun k => linBlk x0 x1 x2 x3 (ix2 p k))
      = Spec.rowMax (Spec.lin A0 A1 A2 A3) n := by
    unfold Spec.rowMax
    exact congrArg (fun g => Finset.fold max (Ideal.ofBits .f32 0xFF800000#32) g (Finset.univ : Finset (Fin 64))) (funext hl)
  rw [pay_eq, softmaxBlk_apply, Spec.nodeSoftmax_apply, hm, hl f]
  exact congrArg (Ideal.div _) (Finset.sum_congr rfl fun j _ => by rw [hl j])

/-! ## From the blocks to the array -/

section Region

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the feature, in-degree and result windows are on block (t, 0), the
    weights and the bias row on block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the node stage of the arrays as the region finds them. -/
theorem flushed_eq (c : Dev nD) (t : Fin cfg3.N) :
    (dat3 (F := Ideal) V c).flushed 4 t
      = ((cfg3.win 4).blk t).view.read (Elt Ideal) (Spec.nodeSoftmax (V c main_v68) (V c main_v20) (V c main_arg9) (V c main_v69)) := by
  show (cfg3.win 4).cut (grid3.coords t) ((dat3 (F := Ideal) V c).after 4 t) = _
  rw [after3_4]
  unfold out3_4
  rw [View.canon_unit_zero hz]
  simp only [View.ld_unit_zero (S := S2000x64) hz, View.ld_unit_zero (S := S2000x1) hz, View.ld_unit_zero (S := S64x64) hz,
    View.ld_unit_zero (S := S1x64) hz]
  obtain ⟨e00, e01, e10, e11, e20, e21, e30, e31, e40, e41⟩ := idx_facts t
  funext j
  show k3_pay1 (F := Ideal) (iblk3 V c 0 t) (iblk3 V c 1 t) (iblk3 V c 2 t) (iblk3 V c 3 t) ((cfg3.win 4).xinj (grid3.coords t) j)
    = Spec.nodeSoftmax (V c main_v68) (V c main_v20) (V c main_arg9) (V c main_v69) (((cfg3.win 4).blk t).view.emb j)
  refine pay_eq_spec (V c main_v68) (V c main_v20) (V c main_arg9) (V c main_v69) _ _ _ _ t.val ?_ ?_ ?_ ?_ _ _ ?_ ?_
  · intro p k n hn
    show V c main_v68 (((cfg3.win 0).blk t).view.emb (ix2 p k)) = V c main_v68 (ix2 n k)
    refine congrArg (V c main_v68) (funext fun a => Fin.ext ?_)
    match a with
    | ⟨0, _⟩ => show win3_0.index t (0 : Fin 2) * 2000 + 1 * p.val = n.val; omega
    | ⟨1, _⟩ => show win3_0.index t (1 : Fin 2) * 64 + 1 * k.val = k.val; omega
  · intro p n hn
    show V c main_v20 (((cfg3.win 1).blk t).view.emb (ix2 p (0 : Fin 1))) = V c main_v20 (ix2 n (0 : Fin 1))
    refine congrArg (V c main_v20) (funext fun a => Fin.ext ?_)
    match a with
    | ⟨0, _⟩ => show win3_1.index t (0 : Fin 2) * 2000 + 1 * p.val = n.val; omega
    | ⟨1, _⟩ => show win3_1.index t (1 : Fin 2) * 1 + 1 * 0 = 0; omega
  · intro k q
    show V c main_arg9 (((cfg3.win 2).blk t).view.emb (ix2 k q)) = V c main_arg9 (ix2 k q)
    refine congrArg (V c main_arg9) (funext fun a => Fin.ext ?_)
    match a with
    | ⟨0, _⟩ => show win3_2.index t (0 : Fin 2) * 64 + 1 * k.val = k.val; omega
    | ⟨1, _⟩ => show win3_2.index t (1 : Fin 2) * 64 + 1 * q.val = q.val; omega
  · intro q
    show V c main_v69 (((cfg3.win 3).blk t).view.emb (ix2 (0 : Fin 1) q)) = V c main_v69 (ix2 (0 : Fin 1) q)
    refine congrArg (V c main_v69) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  · show win3_4.index t (0 : Fin 2) * 2000 + 1 * (j 0).val = t.val * 2000 + (j 0).val; omega
  · show win3_4.index t (1 : Fin 2) * 64 + 1 * (j 1).val = (j 1).val; omega

/-- An index of the result array is in point t's block iff each coordinate is in the block's range on its axis. -/
theorem mem_blk (t : Fin cfg3.N) (i : S100000x64.Idx) :
    i ∈ ((cfg3.win 4).blk t).view.set
      ↔ ∀ a : Fin 2, win3_4.index t a * S2000x64.size a ≤ (i a).val ∧ (i a).val < win3_4.index t a * S2000x64.size a + S2000x64.size a := by
  show i ∈ ((View.whole main_v70).slice (win3_4.rect t)).set ↔ _
  rw [View.set_slice_whole, Rect.mem_set_unit]
  exact Iff.rfl

/-- Every index of the result array is in some point's block: row r is in the block of point r / 2000. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, Nat.lt_of_lt_of_eq (by omega : (i 0).val / 2000 < 50) N_3.symm⟩, rfl⟩
  obtain ⟨-, -, -, -, -, -, -, -, e40, e41⟩ := idx_facts t
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 64 ≤ (i 1).val ∧ (i 1).val < win3_4.index t (1 : Fin 2) * 64 + 64
    omega

/-- The result array after the region: the node stage of the arrays as the region finds them. -/
theorem final3 (c : Dev nD) :
    (dat3 (F := Ideal) V c).arrAt 4 cfg3.N = Cert.Spec.nodeSoftmax (V c main_v68) (V c main_v20) (V c main_arg9) (V c main_v69) :=
  (dat3 (F := Ideal) V c).arrAt_eq_of_cover 4 (Spec.nodeSoftmax (V c main_v68) (V c main_v20) (V c main_arg9) (V c main_v69))
    (fun t _ => flushed_eq V c t) cover

end Region

end Cert.KernelIdeal.NodeSoftmaxValue

end
-- ==== Proof.EdgeBridge.lean ====
/-
  The per-edge message in its two layouts. An edge array [E, 64] (E = 1600000) viewed lane-dense as [E/2, 128] puts
  element (e, f) at (e / 2, (e % 2) · 64 + f): both have row-major position 64 · e + f. A feature vector [64] tiled to
  [1, 128] (through [1, 64], [2, 64] and [128]) puts feature f at lanes f and 64 + f. So the message computed on the
  lane-dense view and cast back is the message computed edge by edge.
-/
import Idealize.ShloMosaic.Lib.Pipeline.Value
import Idealize.ShloMosaic.Lib.ValueIdx
import proofs.«154065_j65000035058538_2_alg».proof.Proof.Spec

noncomputable section

namespace Cert.Spec

open Idealize.ShloMosaic Idealize.ShloMosaic.ValueIdx

abbrev V1 (n : Nat) : Type := (⟨1, ![n]⟩ : Shape).Idx → EReal

/-- The per-edge message, edge by edge: m[e, f] = g[e, f] · (mu[f] + exp(ls[f]) · eps[e, f]). -/
def edge64 (g e : A 1600000 64) (mu ls : V1 64) : A 1600000 64 :=
  fun i => g i * (mu (ix1 (i 1)) + Ideal.exp (ls (ix1 (i 1))) * e i)

/-- The tiled feature vector at lane l is feature l % 64. -/
theorem tile_apply (x : V1 64)
    (h1 : (⟨1, ![64]⟩ : Shape).ShapeCasts ⟨2, ![1, 64]⟩)
    (hb : (⟨2, ![1, 64]⟩ : Shape).BroadcastsInDim ⟨2, ![2, 64]⟩ ![0, 1])
    (h2 : (⟨2, ![2, 64]⟩ : Shape).ShapeCasts ⟨1, ![128]⟩)
    (h3 : (⟨1, ![128]⟩ : Shape).ShapeCasts ⟨2, ![1, 128]⟩) (l : Fin 128) :
    shapeCast (⟨2, ![1, 128]⟩ : Shape) (shapeCast (⟨1, ![128]⟩ : Shape)
        (broadcastInDim (⟨2, ![2, 64]⟩ : Shape) ![0, 1] hb (shapeCast (⟨2, ![1, 64]⟩ : Shape) x h1)) h2) h3 (ix2 (0 : Fin 1) l)
      = x (ix1 (⟨l.val % 64, Nat.mod_lt _ (by norm_num)⟩ : Fin 64)) := by
  have hl : l.val < 128 := l.isLt
  rw [shapeCast_apply _ h3 (ix2 (0 : Fin 1) l) (ix1 l) (by
    rw [Shape.rowMajor_val_two, Shape.rowMajor_val_one]; show l.val = 0 * 128 + l.val; omega)]
  rw [shapeCast_apply _ h2 (ix1 l) (ix2 (⟨l.val / 64, by omega⟩ : Fin 2) (⟨l.val % 64, Nat.mod_lt _ (by norm_num)⟩ : Fin 64)) (by
    rw [Shape.rowMajor_val_two, Shape.rowMajor_val_one]; show l.val / 64 * 64 + l.val % 64 = l.val; omega)]
  rw [broadcastInDim_apply ![0, 1] hb _ _ (ix2 (0 : Fin 1) (⟨l.val % 64, Nat.mod_lt _ (by norm_num)⟩ : Fin 64)) (by
    intro a; match a with
    | ⟨0, _⟩ => rfl
    | ⟨1, _⟩ => rfl)]
  rw [shapeCast_apply _ h1 (ix2 (0 : Fin 1) (⟨l.val % 64, Nat.mod_lt _ (by norm_num)⟩ : Fin 64)) (ix1 (⟨l.val % 64, Nat.mod_lt _ (by norm_num)⟩ : Fin 64)) (by
    rw [Shape.rowMajor_val_two, Shape.rowMajor_val_one]; show l.val % 64 = 0 * 64 + l.val % 64; omega)]

/-- The message computed on the lane-dense view and cast back is the message edge by edge. -/
theorem edge_cast (g e : A 1600000 64) (mu ls : V1 64)
    (c1 : (⟨2, ![1600000, 64]⟩ : Shape).ShapeCasts ⟨2, ![800000, 128]⟩)
    (c2 : (⟨2, ![800000, 128]⟩ : Shape).ShapeCasts ⟨2, ![1600000, 64]⟩)
    (h1 : (⟨1, ![64]⟩ : Shape).ShapeCasts ⟨2, ![1, 64]⟩)
    (hb : (⟨2, ![1, 64]⟩ : Shape).BroadcastsInDim ⟨2, ![2, 64]⟩ ![0, 1])
    (h2 : (⟨2, ![2, 64]⟩ : Shape).ShapeCasts ⟨1, ![128]⟩)
    (h3 : (⟨1, ![128]⟩ : Shape).ShapeCasts ⟨2, ![1, 128]⟩) :
    shapeCast (⟨2, ![1600000, 64]⟩ : Shape)
      (edge (shapeCast (⟨2, ![800000, 128]⟩ : Shape) g c1) (shapeCast (⟨2, ![800000, 128]⟩ : Shape) e c1)
        (shapeCast (⟨2, ![1, 128]⟩ : Shape) (shapeCast (⟨1, ![128]⟩ : Shape)
          (broadcastInDim (⟨2, ![2, 64]⟩ : Shape) ![0, 1] hb (shapeCast (⟨2, ![1, 64]⟩ : Shape) mu h1)) h2) h3)
        (shapeCast (⟨2, ![1, 128]⟩ : Shape) (shapeCast (⟨1, ![128]⟩ : Shape)
          (broadcastInDim (⟨2, ![2, 64]⟩ : Shape) ![0, 1] hb (shapeCast (⟨2, ![1, 64]⟩ : Shape) ls h1)) h2) h3)) c2
      = edge64 g e mu ls := by
  funext i
  obtain ⟨p, q, rfl⟩ : ∃ (p : Fin 1600000) (q : Fin 64), i = ix2 p q := ⟨i 0, i 1, eq_ix2 i⟩
  have hp : p.val < 1600000 := p.isLt
  have hq : q.val < 64 := q.isLt
  have hr : p.val / 2 < 800000 := by omega
  have hl : p.val % 2 * 64 + q.val < 128 := by omega
  have hmod : (p.val % 2 * 64 + q.val) % 64 = q.val := by omega
  rw [shapeCast_apply _ c2 (ix2 p q) (ix2 (⟨p.val / 2, hr⟩ : Fin 800000) (⟨p.val % 2 * 64 + q.val, hl⟩ : Fin 128)) (by
    rw [Shape.rowMajor_val_two, Shape.rowMajor_val_two]
    show p.val / 2 * 128 + (p.val % 2 * 64 + q.val) = p.val * 64 + q.val; omega)]
  rw [edge_apply, tile_apply, tile_apply]
  rw [shapeCast_apply g c1 (ix2 (⟨p.val / 2, hr⟩ : Fin 800000) (⟨p.val % 2 * 64 + q.val, hl⟩ : Fin 128)) (ix2 p q) (by
    rw [Shape.rowMajor_val_two, Shape.rowMajor_val_two]
    show p.val * 64 + q.val = p.val / 2 * 128 + (p.val % 2 * 64 + q.val); omega)]
  rw [shapeCast_apply e c1 (ix2 (⟨p.val / 2, hr⟩ : Fin 800000) (⟨p.val % 2 * 64 + q.val, hl⟩ : Fin 128)) (ix2 p q) (by
    rw [Shape.rowMajor_val_two, Shape.rowMajor_val_two]
    show p.val * 64 + q.val = p.val / 2 * 128 + (p.val % 2 * 64 + q.val); omega)]
  have hf : (⟨(p.val % 2 * 64 + q.val) % 64, Nat.mod_lt _ (by norm_num)⟩ : Fin 64) = q := Fin.ext hmod
  show g (ix2 p q) * (mu (ix1 (⟨(p.val % 2 * 64 + q.val) % 64, _⟩ : Fin 64)) + Ideal.exp (ls (ix1 (⟨(p.val % 2 * 64 + q.val) % 64, _⟩ : Fin 64))) * e (ix2 p q))
      = g (ix2 p q) * (mu (ix1 q) + Ideal.exp (ls (ix1 q)) * e (ix2 p q))
  rw [hf]

end Cert.Spec

end
-- ==== Proof.EdgeStage.lean ====
/-
  The reference's per-edge message as its host operations compute it on whole arrays — the two feature vectors (the
  mean, and the exponential of the log-scale) broadcast along the edges, a product with the noise, a sum, a product
  with the gathered features — is the message edge by edge: m[e, f] = g[e, f] · (mu[f] + exp(ls[f]) · eps[e, f]).
-/
import Idealize.ShloMosaic.Lib.Pipeline.Value
import Idealize.ShloMosaic.Lib.ValueIdx
import Idealize.ShloMosaic.PureOps.Ideal.Laws
import proofs.«154065_j65000035058538_2_alg».proof.ReferenceIdeal
import proofs.«154065_j65000035058538_2_alg».proof.Proof.EdgeBridge

noncomputable section

namespace Cert.ReferenceIdeal.EdgeStage

open Idealize.ShloMosaic Idealize.ShloMosaic.ValueIdx Cert.ReferenceIdeal

variable [Facts₀]
open Facts₀

/-- A feature vector `[64]` broadcast to one row `[1, 64]` and then along the 1600000 edges reads, at `(p, q)`, the
    vector at `q`. -/
theorem bcast_feature_apply (x : (⟨S64, .f32⟩ : BufTy).Contents (Elt Ideal)) (p : Fin 1600000) (q : Fin 64) :
    broadcastInDim S1600000x64 ![0, 1] bcast_S1x64_S1600000x64_0_1 (broadcastInDim S1x64 ![1] bcast_S64_S1x64_1 x) (ix2 p q)
      = x (ix1 q) := by
  rw [broadcastInDim_apply ![0, 1] bcast_S1x64_S1600000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply ![1] bcast_S64_S1x64_1 x (ix2 (0 : Fin 1) q) (ix1 q) (fun a => match a with
    | ⟨0, _⟩ => by show q.val = if (64 : Nat) = 1 then 0 else q.val; rw [if_neg (by decide)])

/-- The host operations' whole-array term is the per-edge message. -/
theorem edge_stage (g e : (⟨S1600000x64, .f32⟩ : BufTy).Contents (Elt Ideal)) (mu ls : (⟨S64, .f32⟩ : BufTy).Contents (Elt Ideal)) :
    mulf (F := Ideal) (φ := .f32) g (addf (broadcastInDim S1600000x64 ![0, 1] bcast_S1x64_S1600000x64_0_1 (broadcastInDim S1x64 ![1] bcast_S64_S1x64_1 mu))
      (mulf (broadcastInDim S1600000x64 ![0, 1] bcast_S1x64_S1600000x64_0_1 (broadcastInDim S1x64 ![1] bcast_S64_S1x64_1 (Host.exp ls))) e))
    = Cert.Spec.edge64 g e mu ls := by
  funext i
  obtain ⟨p, q, rfl⟩ : ∃ (p : Fin 1600000) (q : Fin 64), i = ix2 p q := ⟨i 0, i 1, eq_ix2 i⟩
  rw [mulf_apply, addf_apply, mulf_apply, bcast_feature_apply, bcast_feature_apply]
  rfl

end Cert.ReferenceIdeal.EdgeStage

end
-- ==== Proof.NodeBridge.lean ====
/-
  The reference's first node stage as one function of whole arrays.

  After the edge messages are summed into each destination node, the reference scales a node's row by its in-degree
  factor, multiplies by the 64×64 weight matrix, adds the bias, takes the maximum with zero and scales by the out-degree
  factor — eight host operations on [100000, 64] arrays. Here: each of those operations read at one element (a column,
  a row, a vector and a scalar broadcast; the matrix product as a sum over the 64 contracted features), and the
  composition at every element as the layer function `Cert.Spec.nodeRelu`.
-/
import Idealize.ShloMosaic.Lib.Pipeline.Value
import Idealize.ShloMosaic.Lib.ValueIdx
import Idealize.ShloMosaic.Lib.ValueLayout
import Idealize.ShloMosaic.PureOps.Ideal.Laws
import proofs.«154065_j65000035058538_2_alg».proof.ReferenceIdeal
import proofs.«154065_j65000035058538_2_alg».proof.Proof.Spec

noncomputable section

namespace Cert.ReferenceIdeal.NodeBridge

open Cert.ReferenceIdeal Idealize.ShloMosaic Idealize.ShloMosaic.ValueIdx
open scoped BigOperators

variable [Facts₀]
open Facts₀

/-! ## The broadcasts at an element -/

section Broadcasts
variable {α : Type}

/-- A [100000, 1] column broadcast along the features reads, at `(n, f)`, the column at `(n, 0)`. -/
theorem bcast_col (x : S100000x1.Idx → α) (n : Fin 100000) (f : Fin 64) :
    broadcastInDim S100000x64 ![0, 1] bcast_S100000x1_S100000x64_0_1 x (ix2 n f) = x (ix2 n (0 : Fin 1)) :=
  broadcastInDim_apply _ bcast_S100000x1_S100000x64_0_1 x (ix2 n f) (ix2 n (0 : Fin 1)) (fun a => match a with
    | ⟨0, _⟩ => by show n.val = if (100000 : Nat) = 1 then 0 else n.val; rw [if_neg (by decide)]
    | ⟨1, _⟩ => by show 0 = if (1 : Nat) = 1 then 0 else f.val; rw [if_pos rfl])

/-- A [1, 64] row broadcast along the nodes reads, at `(n, f)`, the row at `(0, f)`. -/
theorem bcast_row (x : S1x64.Idx → α) (n : Fin 100000) (f : Fin 64) :
    broadcastInDim S100000x64 ![0, 1] bcast_S1x64_S100000x64_0_1 x (ix2 n f) = x (ix2 (0 : Fin 1) f) :=
  broadcastInDim_apply _ bcast_S1x64_S100000x64_0_1 x (ix2 n f) (ix2 (0 : Fin 1) f) (fun a => match a with
    | ⟨0, _⟩ => by show 0 = if (1 : Nat) = 1 then 0 else n.val; rw [if_pos rfl]
    | ⟨1, _⟩ => by show f.val = if (64 : Nat) = 1 then 0 else f.val; rw [if_neg (by decide)])

/-- A [64] vector placed on the second axis of [1, 64] reads, at `(u, f)`, the vector at `f`. -/
theorem bcast_vec (x : S64.Idx → α) (u : Fin 1) (f : Fin 64) :
    broadcastInDim S1x64 ![1] bcast_S64_S1x64_1 x (ix2 u f) = x (ix1 f) :=
  broadcastInDim_apply _ bcast_S64_S1x64_1 x (ix2 u f) (ix1 f) (fun a => match a with
    | ⟨0, _⟩ => by show f.val = if (64 : Nat) = 1 then 0 else f.val; rw [if_neg (by decide)])

/-- A scalar broadcast to [100000, 64] reads the scalar everywhere. -/
theorem bcast_scalar (x : S_.Idx → α) (i : S100000x64.Idx) :
    broadcastInDim S100000x64 ![] bcast_S_S100000x64 x i = x ix0 :=
  broadcastInDim_apply _ bcast_S_S100000x64 x i ix0 (fun a => a.elim0)

end Broadcasts

/-! ## The matrix product at an element -/

theorem lhs_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil), dif_pos (show (0 : Fin S100000x64.rank) ∈ dot_S100000x64_S64x64_S100000x64_1_0_0_1_n_n.lhsNonContracting from List.mem_singleton.mpr rfl)]
  rfl
theorem lhs_1 (i : S100000x64.Idx) (q : dot_S100000x64_S64x64_S100000x64_1_0_0_1_n_n.contr.Idx) : (dot_S100000x64_S64x64_S100000x64_1_0_0_1_n_n.lhsIdx i q 1).val = (q ⟨0, (Nat.one_pos : 0 < dot_S100000x64_S64x64_S100000x64_1_0_0_1_n_n.contr.rank)⟩).val :=
  dot_S100000x64_S64x64_S100000x64_1_0_0_1_n_n.lhsIdx_val_of_single rfl i q
theorem rhs_0 (i : S100000x64.Idx) (q : dot_S100000x64_S64x64_S100000x64_1_0_0_1_n_n.contr.Idx) : (dot_S100000x64_S64x64_S100000x64_1_0_0_1_n_n.rhsIdx i q 0).val = (q ⟨0, (Nat.one_pos : 0 < dot_S100000x64_S64x64_S100000x64_1_0_0_1_n_n.contr.rank)⟩).val :=
  dot_S100000x64_S64x64_S100000x64_1_0_0_1_n_n.rhsIdx_val_of_single rfl i q
theorem rhs_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil), dif_pos (show (1 : Fin S64x64.rank) ∈ dot_S100000x64_S64x64_S100000x64_1_0_0_1_n_n.rhsNonContracting from List.mem_singleton.mpr rfl)]
  rfl

/-- The host's matrix product of a [100000, 64] array with a [64, 64] one, at the extended reals, reads at `(n, f)` the sum
    over the contracted feature `k` of `l[n, k] · r[k, f]`. -/
theorem dot_apply (l : FVec Ideal S100000x64 .f32) (r : FVec Ideal S64x64 .f32) (n : Fin 100000) (f : Fin 64) :
    Host.dotGeneral dot_S100000x64_S64x64_S100000x64_1_0_0_1_n_n none l r (ix2 n f) = ∑ k : Fin 64, l (ix2 n k) * r (ix2 k f) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n f) ((contrEquiv1 dot_S100000x64_S64x64_S100000x64_1_0_0_1_n_n 64 rfl rfl).symm k) = ix2 n k := funext fun a => Fin.ext (by
    match a with
    | ⟨0, _⟩ => exact lhs_0 _ _
    | ⟨1, _⟩ => exact (lhs_1 _ _).trans hk)
  have er : dot_S100000x64_S64x64_S100000x64_1_0_0_1_n_n.rhsIdx (ix2 n f) ((contrEquiv1 dot_S100000x64_S64x64_S100000x64_1_0_0_1_n_n 64 rfl rfl).symm k) = ix2 k f := funext fun a => Fin.ext (by
    match a with
    | ⟨0, _⟩ => exact (rhs_0 _ _).trans hk
    | ⟨1, _⟩ => exact rhs_1 _ _)
  rw [el, er]

/-! ## The stage -/

/-- THE FIRST NODE STAGE of the reference — in-degree scaling, matrix product, bias, maximum with zero, out-degree
    scaling, as the host operations write them — is the layer function, the bias read as a [1, 64] row. -/
theorem relu_stage (agg : (⟨S100000x64, .f32⟩ : BufTy).Contents (Elt Ideal)) (nin nout : (⟨S100000x1, .f32⟩ : BufTy).Contents (Elt Ideal))
    (W : (⟨S64x64, .f32⟩ : BufTy).Contents (Elt Ideal)) (b : (⟨S64, .f32⟩ : BufTy).Contents (Elt Ideal)) (hc : S64.ShapeCasts S1x64) :
    mulf (φ := .f32) (maximumf (φ := .f32) (addf (φ := .f32) (Host.dotGeneral (φ₁ := .f32) (φ₂ := .f32) dot_S100000x64_S64x64_S100000x64_1_0_0_1_n_n none (mulf (φ := .f32) agg (broadcastInDim S100000x64 ![0, 1] bcast_S100000x1_S100000x64_0_1 nin)) W)
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32)))
      (broadcastInDim S100000x64 ![0, 1] bcast_S100000x1_S100000x64_0_1 nout)
    = Cert.Spec.nodeRelu agg nin W (shapeCast S1x64 b hc) nout := by
  funext i
  obtain ⟨n, f, rfl⟩ : ∃ (n : Fin 100000) (f : Fin 64), i = ix2 n f := ⟨i 0, i 1, eq_ix2 i⟩
  rw [Cert.Spec.nodeRelu_apply, Cert.Spec.lin_apply, shapeCast_a_1a_apply]
  rw [mulf_apply, maximumf_apply, addf_apply, bcast_col, bcast_scalar, constant_apply, Ideal.ofBits_zero_f32, bcast_row,
    bcast_vec, dot_apply]
  refine congrArg (fun s : EReal => max (s + b (ix1 f)) 0 * nout (ix2 n (0 : Fin 1))) (Finset.sum_congr rfl fun k _ => ?_)
  rw [mulf_apply, bcast_col]

end Cert.ReferenceIdeal.NodeBridge

end
-- ==== Proof.SoftmaxBridge.lean ====
/-
  The reference's second node stage, read as a whole array. The host program scales each row of the aggregated
  features by its in-degree factor, multiplies by the 64 × 64 weights, adds the bias, and takes the softmax of each
  row: the row's maximum (a reduction from −∞, then once more the maximum against −∞), the exponentials of the
  differences, divided by their row sum (a sum from 0). Index by index this is the node stage of the specification,
  with the bias vector read as a one-row array.
-/
import Idealize.ShloMosaic.Lib.Pipeline.Value
import Idealize.ShloMosaic.Lib.ValueIdx
import Idealize.ShloMosaic.Lib.ValueLayout
import Idealize.ShloMosaic.PureOps.Ideal.Laws
import proofs.«154065_j65000035058538_2_alg».proof.Proof.Gen.ReferenceIdeal
import proofs.«154065_j65000035058538_2_alg».proof.Proof.Spec

noncomputable section

namespace Cert.ReferenceIdeal.SoftmaxBridge

open Cert.ReferenceIdeal Cert.ReferenceIdeal.Gen Idealize.ShloMosaic Idealize.ShloMosaic.ValueIdx

/-! ## The broadcasts, read at an index -/

section Layout
variable {α : Type}

/-- A [100000, 1] column broadcast along the rows' 64 entries reads, at (n, f), the column's entry of row n. -/
theorem bc_col (h : S100000x1.BroadcastsInDim S100000x64 (![0, 1] : Fin 2 → Fin S100000x64.rank)) (y : S100000x1.Idx → α)
    (n : Fin 100000) (f : Fin 64) : broadcastInDim S100000x64 ![0, 1] h y (ix2 n f) = y (ix2 n (0 : Fin 1)) :=
  broadcastInDim_apply _ h y (ix2 n f) (ix2 n (0 : Fin 1)) (fun a => match a with
    | ⟨0, _⟩ => by show n.val = if (100000 : Nat) = 1 then 0 else n.val; rw [if_neg (by decide)]
    | ⟨1, _⟩ => by show 0 = if (1 : Nat) = 1 then 0 else f.val; rw [if_pos rfl])

/-- A [100000] vector viewed as a column reads, at (n, u), the vector's entry n. -/
theorem bc_vec (h : S100000.BroadcastsInDim S100000x1 (![0] : Fin 1 → Fin S100000x1.rank)) (y : S100000.Idx → α)
    (n : Fin 100000) (u : Fin 1) : broadcastInDim S100000x1 ![0] h y (ix2 n u) = y (ix1 n) :=
  broadcastInDim_apply _ h y (ix2 n u) (ix1 n) (fun a => match a with
    | ⟨0, _⟩ => by show n.val = if (100000 : Nat) = 1 then 0 else n.val; rw [if_neg (by decide)])

/-- A [1, 64] row broadcast down the 100000 rows reads, at (n, f), the row's entry f. -/
theorem bc_row (h : S1x64.BroadcastsInDim S100000x64 (![0, 1] : Fin 2 → Fin S100000x64.rank)) (y : S1x64.Idx → α)
    (n : Fin 100000) (f : Fin 64) : broadcastInDim S100000x64 ![0, 1] h y (ix2 n f) = y (ix2 (0 : Fin 1) f) :=
  broadcastInDim_apply _ h y (ix2 n f) (ix2 (0 : Fin 1) f) (fun a => match a with
    | ⟨0, _⟩ => by show 0 = if (1 : Nat) = 1 then 0 else n.val; rw [if_pos rfl]
    | ⟨1, _⟩ => by show f.val = if (64 : Nat) = 1 then 0 else f.val; rw [if_neg (by decide)])

/-- A [64] vector viewed as a row reads, at (u, f), the vector's entry f. -/
theorem bc_bias (h : S64.BroadcastsInDim S1x64 (![1] : Fin 1 → Fin S1x64.rank)) (y : S64.Idx → α)
    (u : Fin 1) (f : Fin 64) : broadcastInDim S1x64 ![1] h y (ix2 u f) = y (ix1 f) :=
  broadcastInDim_apply _ h y (ix2 u f) (ix1 f) (fun a => match a with
    | ⟨0, _⟩ => by show f.val = if (64 : Nat) = 1 then 0 else f.val; rw [if_neg (by decide)])

/-- A scalar broadcast to a [100000] vector reads the scalar everywhere. -/
theorem bc_scalar (h : S_.BroadcastsInDim S100000 (![] : Fin 0 → Fin S100000.rank)) (y : S_.Idx → α) (i : S100000.Idx) :
    broadcastInDim S100000 ![] h y i = y (fun a => a.elim0) :=
  broadcastInDim_apply _ h y i (fun a => a.elim0) (fun a => a.elim0)

end Layout

/-! ## The reductions along a row -/

theorem reduces_row : S100000x64.Reduces [1] S100000 := by decide

/-- The index of the [100000, 64] array over row n with column k inserted is (n, k). -/
theorem lift_row (h : S100000x64.Reduces [1] S100000) (n : Fin 100000) (k : Fin (S100000x64.size 1)) :
    h.lift (ix1 n) k = ix2 n (⟨k.val, k.isLt⟩ : Fin 64) := by
  funext c; apply Fin.ext
  fin_cases c <;> rfl

/-- The host's sum from 0 along the 64 entries of row n. -/
theorem rowSum_apply (x : FVec Ideal S100000x64 .f32) (n : Fin 100000) :
    Host.reduceAdd (F := Ideal) x (constant (F := Ideal) S_ .f32 0x00000000#32) reducesTo_S100000x64_S100000_d1 h_S_ (ix1 n)
      = ∑ k : Fin 64, x (ix2 n k) := by
  simp only [Host.reduceAdd, Ideal.hostReduceAdd_def]
  rw [Ideal.hostReduceAdd_single reducesTo_S100000x64_S100000_d1 reduces_row]
  show Ideal.ofBits .f32 0x00000000#32 + _ = _
  rw [Ideal.ofBits_zero_f32, zero_add]
  exact Finset.sum_congr rfl fun k _ => congrArg x (lift_row reduces_row n k)

/-- The host's maximum from −∞ along the 64 entries of row n. -/
theorem rowMax_apply (x : FVec Ideal S100000x64 .f32) (n : Fin 100000) :
    Host.reduce FloatOps.maximumf x (constant (F := Ideal) S_ .f32 0xFF800000#32) reducesTo_S100000x64_S100000_d1 h_S_ (ix1 n)
      = (Finset.univ : Finset (Fin 64)).fold max (Ideal.ofBits .f32 0xFF800000#32) (fun k => x (ix2 n k)) :=
  (Host.reduce_eq_fold_single FloatOps.maximumf x _ reducesTo_S100000x64_S100000_d1 reduces_row h_S_ (ix1 n)).trans
    (congrArg (fun g => Finset.fold max (Ideal.ofBits .f32 0xFF800000#32) g (Finset.univ : Finset (Fin 64)))
      (funext fun k => congrArg x (lift_row reduces_row n k)))

/-! ## The matrix product, read at an index -/

/-! The product's operand indices at output index i and contracted coordinate q: (i 0, q) and (q, i 1). -/

theorem lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's matrix product at (n, f): the sum over the 64 contracted coordinates. -/
theorem dot_apply (lhs : FVec Ideal S100000x64 .f32) (rhs : FVec Ideal S64x64 .f32) (n : Fin 100000) (f : Fin 64) :
    Host.dotGeneral (F := Ideal) dot_S100000x64_S64x64_S100000x64_1_0_0_1_n_n none lhs rhs (ix2 n f)
      = ∑ k : Fin 64, lhs (ix2 n k) * rhs (ix2 k f) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n f) ((contrEquiv1 dot_S100000x64_S64x64_S100000x64_1_0_0_1_n_n 64 rfl rfl).symm k) = ix2 n k :=
    funext fun a => Fin.ext (by
      match a with
      | ⟨0, _⟩ => exact lhs_0 _ _
      | ⟨1, _⟩ => exact (lhs_1 _ _).trans hk)
  have er : dot_S100000x64_S64x64_S100000x64_1_0_0_1_n_n.rhsIdx (ix2 n f) ((contrEquiv1 dot_S100000x64_S64x64_S100000x64_1_0_0_1_n_n 64 rfl rfl).symm k) = ix2 k f :=
    funext fun a => Fin.ext (by
      match a with
      | ⟨0, _⟩ => exact (rhs_0 _ _).trans hk
      | ⟨1, _⟩ => exact rhs_1 _ _)
  rw [el, er]

/-! ## The stage's values -/

/-- The reference's linear layer: the scaled features times the weights, plus the bias down the rows. -/
def linR (agg : FVec Ideal S100000x64 .f32) (nin : FVec Ideal S100000x1 .f32) (W : FVec Ideal S64x64 .f32) (b : FVec Ideal S64 .f32) :
    FVec Ideal S100000x64 .f32 :=
  addf (Host.dotGeneral (F := Ideal) dot_S100000x64_S64x64_S100000x64_1_0_0_1_n_n none
      (mulf agg (broadcastInDim S100000x64 ![0, 1] bcast_S100000x1_S100000x64_0_1 nin)) W)
    (broadcastInDim S100000x64 ![0, 1] bcast_S1x64_S100000x64_0_1 (broadcastInDim S1x64 ![1] bcast_S64_S1x64_1 b))

/-- The reference's row maximum: the reduction from −∞, then the maximum against −∞ once more. -/
def maxR (z : FVec Ideal S100000x64 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x64_S100000_d1 h_S_)

/-- The exponentials of the differences from the row maximum. -/
def expR (z : FVec Ideal S100000x64 .f32) : FVec Ideal S100000x64 .f32 :=
  Host.exp (F := Ideal) (subf z (broadcastInDim S100000x64 ![0, 1] bcast_S100000x1_S100000x64_0_1
    (broadcastInDim S100000x1 ![0] bcast_S100000_S100000x1_0 (maxR z))))

/-- The host's division at an index is the extended reals' division of the elements. -/
theorem hostDivf_apply {s : Shape} (a b : FVec Ideal s .f32) (i : s.Idx) : Host.divf (F := Ideal) a b i = Ideal.div (a i) (b i) := rfl

/-- The host's exponential at an index is the extended reals' exponential of the element. -/
theorem hostExp_apply {s : Shape} (a : FVec Ideal s .f32) (i : s.Idx) : Host.exp (F := Ideal) a i = Ideal.exp (a i) := rfl

/-- The linear layer at (n, f). -/
theorem linR_apply (agg : FVec Ideal S100000x64 .f32) (nin : FVec Ideal S100000x1 .f32) (W : FVec Ideal S64x64 .f32) (b : FVec Ideal S64 .f32)
    (n : Fin 100000) (f : Fin 64) :
    linR agg nin W b (ix2 n f) = (∑ k : Fin 64, (agg (ix2 n k) * nin (ix2 n (0 : Fin 1))) * W (ix2 k f)) + b (ix1 f) := by
  unfold linR
  rw [addf_apply, dot_apply, bc_row, bc_bias]
  refine congrArg (· + b (ix1 f)) (Finset.sum_congr rfl fun k _ => ?_)
  rw [mulf_apply, bc_col]

/-- The row maximum at n is the fold of max from −∞ over the row. -/
theorem maxR_apply (z : FVec Ideal S100000x64 .f32) (n : Fin 100000) :
    maxR z (ix1 n) = (Finset.univ : Finset (Fin 64)).fold max (Ideal.ofBits .f32 0xFF800000#32) (fun k => z (ix2 n k)) := by
  unfold maxR
  rw [maximumf_apply, bc_scalar, rowMax_apply]
  exact max_eq_right ((Finset.le_fold_max _).mpr (Or.inl le_rfl))

/-- The exponential at (n, f). -/
theorem expR_apply (z : FVec Ideal S100000x64 .f32) (n : Fin 100000) (f : Fin 64) :
    expR z (ix2 n f)
      = Ideal.exp (z (ix2 n f) - (Finset.univ : Finset (Fin 64)).fold max (Ideal.ofBits .f32 0xFF800000#32) (fun k => z (ix2 n k))) := by
  unfold expR
  rw [hostExp_apply, subf_apply, bc_col, bc_vec, maxR_apply]

/-- The reference's linear layer is the specification's, the bias read as a one-row array. -/
theorem linR_eq (agg : FVec Ideal S100000x64 .f32) (nin : FVec Ideal S100000x1 .f32) (W : FVec Ideal S64x64 .f32) (b : FVec Ideal S64 .f32)
    (hc : S64.ShapeCasts S1x64) : linR agg nin W b = Cert.Spec.lin agg nin W (shapeCast S1x64 b hc) := by
  funext i
  obtain ⟨n, f, rfl⟩ : ∃ (n : Fin 100000) (f : Fin 64), i = ix2 n f := ⟨i 0, i 1, eq_ix2 i⟩
  rw [linR_apply, Cert.Spec.lin_apply, shapeCast_a_1a_apply]

/-- THE STAGE: the reference's softmax node stage is the specification's. -/
theorem softmax_stage (agg : (⟨S100000x64, .f32⟩ : BufTy).Contents (Elt Ideal)) (nin : (⟨S100000x1, .f32⟩ : BufTy).Contents (Elt Ideal))
    (W : (⟨S64x64, .f32⟩ : BufTy).Contents (Elt Ideal)) (b : (⟨S64, .f32⟩ : BufTy).Contents (Elt Ideal)) (hc : S64.ShapeCasts S1x64) :
    Host.divf (F := Ideal) (expR (linR agg nin W b))
        (broadcastInDim S100000x64 ![0, 1] bcast_S100000x1_S100000x64_0_1 (broadcastInDim S100000x1 ![0] bcast_S100000_S100000x1_0
          (Host.reduceAdd (F := Ideal) (expR (linR agg nin W b)) (constant (F := Ideal) S_ .f32 0x00000000#32) reducesTo_S100000x64_S100000_d1 h_S_)))
      = Cert.Spec.nodeSoftmax agg nin W (shapeCast S1x64 b hc) := by
  funext i
  obtain ⟨n, f, rfl⟩ : ∃ (n : Fin 100000) (f : Fin 64), i = ix2 n f := ⟨i 0, i 1, eq_ix2 i⟩
  rw [hostDivf_apply, bc_col, bc_vec, rowSum_apply, Cert.Spec.nodeSoftmax_apply, expR_apply, linR_eq agg nin W b hc]
  refine congrArg (Ideal.div _) (Finset.sum_congr rfl fun k _ => ?_)
  rw [expR_apply]
  rfl

/-- The same with the stage's operations written out: the linear layer, the row maximum and the exponentials in place. -/
theorem softmax_stage_inline (agg : (⟨S100000x64, .f32⟩ : BufTy).Contents (Elt Ideal)) (nin : (⟨S100000x1, .f32⟩ : BufTy).Contents (Elt Ideal))
    (W : (⟨S64x64, .f32⟩ : BufTy).Contents (Elt Ideal)) (b : (⟨S64, .f32⟩ : BufTy).Contents (Elt Ideal)) (hc : S64.ShapeCasts S1x64) :
    Host.divf (F := Ideal) (φ := .f32) (Host.exp (F := Ideal) (φ := .f32) (subf (φ := .f32) (addf (φ := .f32) (Host.dotGeneral (F := Ideal) (φ₁ := .f32) (φ₂ := .f32) dot_S100000x64_S64x64_S100000x64_1_0_0_1_n_n none (mulf (φ := .f32) agg (broadcastInDim S100000x64 ![0, 1] bcast_S100000x1_S100000x64_0_1 nin)) W) (broadcastInDim S100000x64 ![0, 1] bcast_S1x64_S100000x64_0_1 (broadcastInDim S1x64 ![1] bcast_S64_S1x64_1 b))) (broadcastInDim S100000x64 ![0, 1] bcast_S100000x1_S100000x64_0_1 (broadcastInDim S100000x1 ![0] bcast_S100000_S100000x1_0 (maximumf (φ := .f32) (broadcastInDim S100000 ![] bcast_S_S100000 (constant (F := Ideal) S_ .f32 0xFF800000#32)) (Host.reduce FloatOps.maximumf (addf (φ := .f32) (Host.dotGeneral (F := Ideal) (φ₁ := .f32) (φ₂ := .f32) dot_S100000x64_S64x64_S100000x64_1_0_0_1_n_n none (mulf (φ := .f32) agg (broadcastInDim S100000x64 ![0, 1] bcast_S100000x1_S100000x64_0_1 nin)) W) (broadcastInDim S100000x64 ![0, 1] bcast_S1x64_S100000x64_0_1 (broadcastInDim S1x64 ![1] bcast_S64_S1x64_1 b))) (constant (F := Ideal) S_ .f32 0xFF800000#32) reducesTo_S100000x64_S100000_d1 h_S_))))))
        (broadcastInDim S100000x64 ![0, 1] bcast_S100000x1_S100000x64_0_1 (broadcastInDim S100000x1 ![0] bcast_S100000_S100000x1_0
          (Host.reduceAdd (F := Ideal) (φ := .f32) (Host.exp (F := Ideal) (φ := .f32) (subf (φ := .f32) (addf (φ := .f32) (Host.dotGeneral (F := Ideal) (φ₁ := .f32) (φ₂ := .f32) dot_S100000x64_S64x64_S100000x64_1_0_0_1_n_n none (mulf (φ := .f32) agg (broadcastInDim S100000x64 ![0, 1] bcast_S100000x1_S100000x64_0_1 nin)) W) (broadcastInDim S100000x64 ![0, 1] bcast_S1x64_S100000x64_0_1 (broadcastInDim S1x64 ![1] bcast_S64_S1x64_1 b))) (broadcastInDim S100000x64 ![0, 1] bcast_S100000x1_S100000x64_0_1 (broadcastInDim S100000x1 ![0] bcast_S100000_S100000x1_0 (maximumf (φ := .f32) (broadcastInDim S100000 ![] bcast_S_S100000 (constant (F := Ideal) S_ .f32 0xFF800000#32)) (Host.reduce FloatOps.maximumf (addf (φ := .f32) (Host.dotGeneral (F := Ideal) (φ₁ := .f32) (φ₂ := .f32) dot_S100000x64_S64x64_S100000x64_1_0_0_1_n_n none (mulf (φ := .f32) agg (broadcastInDim S100000x64 ![0, 1] bcast_S100000x1_S100000x64_0_1 nin)) W) (broadcastInDim S100000x64 ![0, 1] bcast_S1x64_S100000x64_0_1 (broadcastInDim S1x64 ![1] bcast_S64_S1x64_1 b))) (constant (F := Ideal) S_ .f32 0xFF800000#32) reducesTo_S100000x64_S100000_d1 h_S_)))))) (constant (F := Ideal) S_ .f32 0x00000000#32) reducesTo_S100000x64_S100000_d1 h_S_)))
      = Cert.Spec.nodeSoftmax agg nin W (shapeCast S1x64 b hc) :=
  softmax_stage agg nin W b hc

end Cert.ReferenceIdeal.SoftmaxBridge

end
-- ==== Proof.KVal.lean ====
/-
  The idealized kernel's result array as a function of the argument arrays: the fold of the host stretches and the four
  pipelines from the launch memory, read stage by stage against the reference's stages. Between the pipelines both
  programs apply the same host operations; each pipeline leaves in its output array the layer function of its input
  arrays (the per-edge message on the lane-dense view; the node stage with relu and the out-degree scaling; the node
  stage with the row softmax), and each of those is the reference's host operations for that layer.
-/
import proofs.«154065_j65000035058538_2_alg».proof.Proof.Gen.KernelIdeal.Frame
import proofs.«154065_j65000035058538_2_alg».proof.Proof.HostReads
import proofs.«154065_j65000035058538_2_alg».proof.Proof.EdgeRegions
import proofs.«154065_j65000035058538_2_alg».proof.Proof.NodeReluRegion
import proofs.«154065_j65000035058538_2_alg».proof.Proof.NodeSoftmaxRegion
import proofs.«154065_j65000035058538_2_alg».proof.Proof.EdgeBridge
import proofs.«154065_j65000035058538_2_alg».proof.Proof.EdgeStage
import proofs.«154065_j65000035058538_2_alg».proof.Proof.NodeBridge
import proofs.«154065_j65000035058538_2_alg».proof.Proof.SoftmaxBridge
import proofs.«154065_j65000035058538_2_alg».proof.Proof.RefReadP

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen Cert.KernelIdeal.HostReads

variable (m : (ℓ : Loc nD τ sig) → Buf (Elt Ideal) ℓ) (ρ : Dev nD → PrngReg) (c : Dev nD)

/-! ## A buffer no later stretch or pipeline writes is carried from the first pipeline's entry -/

theorem at6 (b : Ref sig .tc) (h0 : ∀ w, Pipeline.arrRef spec0 w ≠ b) :
    W6 m ρ c (Proc.devRef .tc b) = W5 m ρ c (Proc.devRef .tc b) := W6_of_ne m ρ c b h0

theorem at7 (b : Ref sig .tc) (h0 : ∀ w, Pipeline.arrRef spec0 w ≠ b)
    (k1 : ∀ y ∈ ([main_v41, main_cst_9, main_v42, main_v43, main_v44, main_v45] : List (Ref sig .tc)), b ≠ y) :
    W7 m ρ c (Proc.devRef .tc b) = W5 m ρ c (Proc.devRef .tc b) :=
  (h1_keep (W6 m ρ c) b k1).trans (at6 m ρ c b h0)

theorem at8 (b : Ref sig .tc) (h0 : ∀ w, Pipeline.arrRef spec0 w ≠ b)
    (k1 : ∀ y ∈ ([main_v41, main_cst_9, main_v42, main_v43, main_v44, main_v45] : List (Ref sig .tc)), b ≠ y)
    (h1 : ∀ w, Pipeline.arrRef spec1 w ≠ b) :
    W8 m ρ c (Proc.devRef .tc b) = W5 m ρ c (Proc.devRef .tc b) :=
  (W8_of_ne m ρ c b h1).trans (at7 m ρ c b h0 k1)

theorem at9 (b : Ref sig .tc) (h0 : ∀ w, Pipeline.arrRef spec0 w ≠ b)
    (k1 : ∀ y ∈ ([main_v41, main_cst_9, main_v42, main_v43, main_v44, main_v45] : List (Ref sig .tc)), b ≠ y)
    (h1 : ∀ w, Pipeline.arrRef spec1 w ≠ b)
    (k2 : ∀ y ∈ ([main_c_10, main_v47, main_v48, main_c_11, main_v49, main_v50, main_v51, main_v52, main_v53, main_v54, main_v55,
      main_v56, main_v57, main_v58, main_v59, main_v60, main_v61, main_v62, main_v63] : List (Ref sig .tc)), b ≠ y) :
    W9 m ρ c (Proc.devRef .tc b) = W5 m ρ c (Proc.devRef .tc b) :=
  (h2_keep (W8 m ρ c) b k2).trans (at8 m ρ c b h0 k1 h1)

theorem at10 (b : Ref sig .tc) (h0 : ∀ w, Pipeline.arrRef spec0 w ≠ b)
    (k1 : ∀ y ∈ ([main_v41, main_cst_9, main_v42, main_v43, main_v44, main_v45] : List (Ref sig .tc)), b ≠ y)
    (h1 : ∀ w, Pipeline.arrRef spec1 w ≠ b)
    (k2 : ∀ y ∈ ([main_c_10, main_v47, main_v48, main_c_11, main_v49, main_v50, main_v51, main_v52, main_v53, main_v54, main_v55,
      main_v56, main_v57, main_v58, main_v59, main_v60, main_v61, main_v62, main_v63] : List (Ref sig .tc)), b ≠ y)
    (h2 : ∀ w, Pipeline.arrRef spec2 w ≠ b) :
    W10 m ρ c (Proc.devRef .tc b) = W5 m ρ c (Proc.devRef .tc b) :=
  (W10_of_ne m ρ c b h2).trans (at9 m ρ c b h0 k1 h1 k2)

theorem at11 (b : Ref sig .tc) (h0 : ∀ w, Pipeline.arrRef spec0 w ≠ b)
    (k1 : ∀ y ∈ ([main_v41, main_cst_9, main_v42, main_v43, main_v44, main_v45] : List (Ref sig .tc)), b ≠ y)
    (h1 : ∀ w, Pipeline.arrRef spec1 w ≠ b)
    (k2 : ∀ y ∈ ([main_c_10, main_v47, main_v48, main_c_11, main_v49, main_v50, main_v51, main_v52, main_v53, main_v54, main_v55,
      main_v56, main_v57, main_v58, main_v59, main_v60, main_v61, main_v62, main_v63] : List (Ref sig .tc)), b ≠ y)
    (h2 : ∀ w, Pipeline.arrRef spec2 w ≠ b)
    (k3 : ∀ y ∈ ([main_v65, main_cst_12, main_v66, main_v67, main_v68, main_v69] : List (Ref sig .tc)), b ≠ y) :
    W11 m ρ c (Proc.devRef .tc b) = W5 m ρ c (Proc.devRef .tc b) :=
  (h3_keep (W10 m ρ c) b k3).trans (at10 m ρ c b h0 k1 h1 k2 h2)

/-! ## The first layer's messages (pipeline 0) -/

theorem w6_v40 : W6 m ρ c (Proc.devRef .tc main_v40)
    = Cert.Spec.edge (W5 m ρ c (Proc.devRef .tc main_v30)) (W5 m ρ c (Proc.devRef .tc main_v31))
        (W5 m ρ c (Proc.devRef .tc main_v35)) (W5 m ρ c (Proc.devRef .tc main_v39)) :=
  (W6_arr m ρ c 4).trans (Cert.KernelIdeal.EdgeValue.final0 (V5 m ρ) c)

theorem h40 : shapeCast S1600000x64 (W6 m ρ c (Proc.devRef .tc main_v40)) shapeCasts_S800000x128_S1600000x64
    = Cert.ReferenceIdeal.ReadP.val_main_v44 (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg11)) := by
  rw [w6_v40, show W5 m ρ c (Proc.devRef .tc main_v30) = _ from pre_v30 (W0 m ρ c),
    show W5 m ρ c (Proc.devRef .tc main_v31) = _ from pre_v31 (W0 m ρ c),
    show W5 m ρ c (Proc.devRef .tc main_v35) = _ from pre_v35 (W0 m ρ c),
    show W5 m ρ c (Proc.devRef .tc main_v39) = _ from pre_v39 (W0 m ρ c)]
  unfold HostReads.tile
  refine (Cert.Spec.edge_cast _ _ _ _ _ _ _ _ _ _).trans ?_
  exact (Cert.ReferenceIdeal.EdgeStage.edge_stage (Cert.ReferenceIdeal.ReadP.val_main_v43 (W0 m ρ c (Proc.devRef .tc main_arg0)) (W0 m ρ c (Proc.devRef .tc main_arg1))) (W0 m ρ c (Proc.devRef .tc main_arg11)) (W0 m ρ c (Proc.devRef .tc main_arg3)) (W0 m ρ c (Proc.devRef .tc main_arg4))).symm

/-! ## The first layer's node stage (pipeline 1) -/

theorem w7_v44 : W7 m ρ c (Proc.devRef .tc main_v44) = Cert.ReferenceIdeal.ReadP.val_main_v47 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg11)) :=
  h1_v44 (W6 m ρ c) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg11)) (h40 m ρ c) ((at6 m ρ c main_arg2 (by decide)).trans (pre_arg2 (W0 m ρ c)))

theorem w7_v45 : W7 m ρ c (Proc.devRef .tc main_v45) = shapeCast S1x64 (W0 m ρ c (Proc.devRef .tc main_arg8)) shapeCasts_S64_S1x64 :=
  (h1_v45 (W6 m ρ c)).trans (congrArg (fun x => shapeCast S1x64 x shapeCasts_S64_S1x64)
    ((at6 m ρ c main_arg8 (by decide)).trans (pre_arg8 (W0 m ρ c))))

theorem w7_v20 : W7 m ρ c (Proc.devRef .tc main_v20) = Cert.ReferenceIdeal.ReadP.val_main_v20 (W0 m ρ c (Proc.devRef .tc main_arg2)) :=
  (at7 m ρ c main_v20 (by decide) (by decide)).trans (pre_v20 (W0 m ρ c))

theorem w7_v13 : W7 m ρ c (Proc.devRef .tc main_v13) = Cert.ReferenceIdeal.ReadP.val_main_v13 (W0 m ρ c (Proc.devRef .tc main_arg1)) :=
  (at7 m ρ c main_v13 (by decide) (by decide)).trans (pre_v13 (W0 m ρ c))

theorem w7_arg7 : W7 m ρ c (Proc.devRef .tc main_arg7) = (W0 m ρ c (Proc.devRef .tc main_arg7)) :=
  (at7 m ρ c main_arg7 (by decide) (by decide)).trans (pre_arg7 (W0 m ρ c))

theorem w8_v46 : W8 m ρ c (Proc.devRef .tc main_v46) = Cert.ReferenceIdeal.ReadP.val_main_v56 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg11)) := by
  refine ((W8_arr m ρ c 5).trans (Cert.KernelIdeal.NodeReluValue.final1 (V7 m ρ) c)).trans ?_
  show Cert.Spec.nodeRelu (W7 m ρ c (Proc.devRef .tc main_v44)) (W7 m ρ c (Proc.devRef .tc main_v20))
    (W7 m ρ c (Proc.devRef .tc main_arg7)) (W7 m ρ c (Proc.devRef .tc main_v45)) (W7 m ρ c (Proc.devRef .tc main_v13)) = _
  rw [w7_v44, w7_v20, w7_arg7, w7_v45, w7_v13]
  exact (Cert.ReferenceIdeal.NodeBridge.relu_stage (Cert.ReferenceIdeal.ReadP.val_main_v47 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg11))) (Cert.ReferenceIdeal.ReadP.val_main_v20 (W0 m ρ c (Proc.devRef .tc main_arg2))) (Cert.ReferenceIdeal.ReadP.val_main_v13 (W0 m ρ c (Proc.devRef .tc main_arg1)))
    (W0 m ρ c (Proc.devRef .tc main_arg7)) (W0 m ρ c (Proc.devRef .tc main_arg8)) shapeCasts_S64_S1x64).symm

/-! ## The second layer's messages (pipeline 2) -/

theorem w9_v54 : W9 m ρ c (Proc.devRef .tc main_v54)
    = shapeCast S800000x128 (Cert.ReferenceIdeal.ReadP.val_main_v63 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg11))) shapeCasts_S1600000x64_S800000x128 :=
  h2_v54 (W8 m ρ c) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg11)) (w8_v46 m ρ c)
    ((at8 m ρ c main_arg1 (by decide) (by decide) (by decide)).trans (pre_arg1 (W0 m ρ c)))

theorem w9_v55 : W9 m ρ c (Proc.devRef .tc main_v55) = shapeCast S800000x128 (W0 m ρ c (Proc.devRef .tc main_arg12)) shapeCasts_S1600000x64_S800000x128 :=
  (h2_v55 (W8 m ρ c)).trans (congrArg (fun x => shapeCast S800000x128 x shapeCasts_S1600000x64_S800000x128)
    ((at8 m ρ c main_arg12 (by decide) (by decide) (by decide)).trans (pre_arg12 (W0 m ρ c))))

theorem w9_v59 : W9 m ρ c (Proc.devRef .tc main_v59) = HostReads.tile (W0 m ρ c (Proc.devRef .tc main_arg5)) :=
  (h2_v59 (W8 m ρ c)).trans (congrArg HostReads.tile
    ((at8 m ρ c main_arg5 (by decide) (by decide) (by decide)).trans (pre_arg5 (W0 m ρ c))))

theorem w9_v63 : W9 m ρ c (Proc.devRef .tc main_v63) = HostReads.tile (W0 m ρ c (Proc.devRef .tc main_arg6)) :=
  (h2_v63 (W8 m ρ c)).trans (congrArg HostReads.tile
    ((at8 m ρ c main_arg6 (by decide) (by decide) (by decide)).trans (pre_arg6 (W0 m ρ c))))

theorem w10_v64 : W10 m ρ c (Proc.devRef .tc main_v64)
    = Cert.Spec.edge (W9 m ρ c (Proc.devRef .tc main_v54)) (W9 m ρ c (Proc.devRef .tc main_v55))
        (W9 m ρ c (Proc.devRef .tc main_v59)) (W9 m ρ c (Proc.devRef .tc main_v63)) :=
  (W10_arr m ρ c 4).trans (Cert.KernelIdeal.EdgeValue.final2 (V9 m ρ) c)

theorem h64 : shapeCast S1600000x64 (W10 m ρ c (Proc.devRef .tc main_v64)) shapeCasts_S800000x128_S1600000x64
    = Cert.ReferenceIdeal.ReadP.val_main_v64 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg11)) (W0 m ρ c (Proc.devRef .tc main_arg12)) := by
  rw [w10_v64, w9_v54, w9_v55, w9_v59, w9_v63]
  unfold HostReads.tile
  refine (Cert.Spec.edge_cast _ _ _ _ _ _ _ _ _ _).trans ?_
  exact (Cert.ReferenceIdeal.EdgeStage.edge_stage (Cert.ReferenceIdeal.ReadP.val_main_v63 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) (W0 m ρ c (Proc.devRef .tc main_arg8)) (W0 m ρ c (Proc.devRef .tc main_arg11))) (W0 m ρ c (Proc.devRef .tc main_arg12)) (W0 m ρ c (Proc.devRef .tc main_arg5)) (W0 m ρ c (Proc.devRef .tc main_arg6))).symm

/-! ## The second layer's node stage (pipeline 3) -/

theorem w11_v68 : W11 m ρ c (Proc.devRef .tc main_v68) = Cert.ReferenceIdeal.ReadP.val_main_v67 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg11)) (W0 m ρ c (Proc.devRef .tc main_arg12)) :=
  h3_v68 (W10 m ρ c) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg11)) (W0 m ρ c (Proc.devRef .tc main_arg12)) (h64 m ρ c)
    ((at10 m ρ c main_arg2 (by decide) (by decide) (by decide) (by decide) (by decide)).trans (pre_arg2 (W0 m ρ c)))

theorem w11_v69 : W11 m ρ c (Proc.devRef .tc main_v69) = shapeCast S1x64 (W0 m ρ c (Proc.devRef .tc main_arg10)) shapeCasts_S64_S1x64 :=
  (h3_v69 (W10 m ρ c)).trans (congrArg (fun x => shapeCast S1x64 x shapeCasts_S64_S1x64)
    ((at10 m ρ c main_arg10 (by decide) (by decide) (by decide) (by decide) (by decide)).trans (pre_arg10 (W0 m ρ c))))

/-- The in-degree norm is an input window of the second pipeline, which leaves it as it found it. -/
theorem w8_v20 : W8 m ρ c (Proc.devRef .tc main_v20) = Cert.ReferenceIdeal.ReadP.val_main_v20 (W0 m ρ c (Proc.devRef .tc main_arg2)) :=
  ((W8_arr m ρ c 1).trans (((dat1 (V7 m ρ) c).arrAt_in 1 rfl _).trans (A_eq1 (V7 m ρ) c 1))).trans (w7_v20 m ρ c)

theorem w11_v20 : W11 m ρ c (Proc.devRef .tc main_v20) = Cert.ReferenceIdeal.ReadP.val_main_v20 (W0 m ρ c (Proc.devRef .tc main_arg2)) :=
  (h3_keep (W10 m ρ c) main_v20 (by decide)).trans ((W10_of_ne m ρ c main_v20 (by decide)).trans
    ((h2_keep (W8 m ρ c) main_v20 (by decide)).trans (w8_v20 m ρ c)))

theorem w11_arg9 : W11 m ρ c (Proc.devRef .tc main_arg9) = (W0 m ρ c (Proc.devRef .tc main_arg9)) :=
  (at11 m ρ c main_arg9 (by decide) (by decide) (by decide) (by decide) (by decide) (by decide)).trans (pre_arg9 (W0 m ρ c))

/-- THE RESULT: the last boundary's contents of the result buffer are the reference's last stage of the arguments. -/
theorem value : W12 m ρ c (Proc.devRef .tc main_v70)
    = Cert.ReferenceIdeal.ReadP.val_main_v84 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) := by
  refine ((W12_arr m ρ c 4).trans (Cert.KernelIdeal.NodeSoftmaxValue.final3 (V11 m ρ) c)).trans ?_
  show Cert.Spec.nodeSoftmax (W11 m ρ c (Proc.devRef .tc main_v68)) (W11 m ρ c (Proc.devRef .tc main_v20))
    (W11 m ρ c (Proc.devRef .tc main_arg9)) (W11 m ρ c (Proc.devRef .tc main_v69)) = _
  rw [w11_v68, w11_v20, w11_arg9, w11_v69]
  exact (Cert.ReferenceIdeal.SoftmaxBridge.softmax_stage (Cert.ReferenceIdeal.ReadP.val_main_v67 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg11)) (W0 m ρ c (Proc.devRef .tc main_arg12))) (Cert.ReferenceIdeal.ReadP.val_main_v20 (W0 m ρ c (Proc.devRef .tc main_arg2)))
    (W0 m ρ c (Proc.devRef .tc main_arg9)) (W0 m ρ c (Proc.devRef .tc main_arg10)) shapeCasts_S64_S1x64).symm

end Cert.KernelIdeal.KVal

end
-- ==== Proof.lean ====
/-
  The certificate's proof. The three frames: the two kernel programs' are the generated frame certificates; the
  reference's is its run with the result dropped. The ideal pass rewrote nothing, so the idealization conjunct is trivial.
  The algebraic conjunct: the idealized kernel's result array — the fold of its host stretches and four pipelines, read
  stage by stage (Proof/KVal.lean) — and the reference's result — its operations' composed term (the reference's run)
  — are the same function of the arguments, the reference's last stage: a two-layer graph convolution whose layers
  differ between the programs only in where the arithmetic runs and in the lane-dense view of the edge arrays.
-/
import proofs.«154065_j65000035058538_2_alg».proof.Defs
import proofs.«154065_j65000035058538_2_alg».proof.Proof.Gen.Kernel
import proofs.«154065_j65000035058538_2_alg».proof.Proof.Gen.Kernel.Frame
import proofs.«154065_j65000035058538_2_alg».proof.Proof.Gen.KernelIdeal
import proofs.«154065_j65000035058538_2_alg».proof.Proof.Gen.KernelIdeal.Frame
import proofs.«154065_j65000035058538_2_alg».proof.Proof.Gen.ReferenceIdeal
import proofs.«154065_j65000035058538_2_alg».proof.Proof.Gen.Pre_finite_inputs
import proofs.«154065_j65000035058538_2_alg».proof.Proof.KRun
import proofs.«154065_j65000035058538_2_alg».proof.Proof.KVal
import proofs.«154065_j65000035058538_2_alg».proof.Proof.RefRunP
import proofs.«154065_j65000035058538_2_alg».proof.Proof.RefReadP
import Idealize.ShloMosaic.Adequacy
import Idealize.ShloMosaic.Init

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2) (Cert.ReferenceIdeal.ValueP.run (F := Ideal) m ρ)
  · -- both results are the reference's last stage of the arguments
    intro m ρ m' ρ' _ hagree
    refine ⟨fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
    · exact (θ_run Cert.KernelIdeal.defs _ _).mono (fun r h c => ⟨(h c).1.trans (Cert.KernelIdeal.KVal.value m ρ c), (h c).2⟩)
        (Cert.KernelIdeal.KRun.run (F := Ideal) m ρ)
    · refine (θ_run Cert.ReferenceIdeal.defs _ _).mono (fun r h c => ⟨(h c).1.trans ?_, (h c).2⟩)
        (Cert.ReferenceIdeal.ValueP.run (F := Ideal) m' ρ')
      obtain ⟨e0, e1, e2, e3, e4, e5, e6, e7, e8, e9, e10, e11, e12⟩ := hagree c
      rw [Cert.ReferenceIdeal.ReadP.val_main_v84_eq, e0, e1, e2, e3, e4, e5, e6, e7, e8, e9, e10, e11, e12]⟩

end Cert.Proof

end
